-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 135
  | .vmem => 26
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S100000x64, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x64, .f32⟩
  | 83 => ⟨S3300000x1, .f32⟩
  | 84 => ⟨S3300000x64, .f32⟩
  | 85 => ⟨S3300000x64, .f32⟩
  | 86 => ⟨S_, .f32⟩
  | 87 => ⟨S100000x64, .f32⟩
  | 88 => ⟨S3300000x1, .i32⟩
  | 89 => ⟨S100000x64, .f32⟩
  | 90 => ⟨S1x64, .f32⟩
  | 91 => ⟨S100000x64, .f32⟩
  | 92 => ⟨S100000x64, .f32⟩
  | 93 => ⟨S100000x64, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x64, .f32⟩
  | 103 => ⟨S3300000x1, .f32⟩
  | 104 => ⟨S3300000x64, .f32⟩
  | 105 => ⟨S3300000x64, .f32⟩
  | 106 => ⟨S_, .f32⟩
  | 107 => ⟨S100000x64, .f32⟩
  | 108 => ⟨S3300000x1, .i32⟩
  | 109 => ⟨S100000x64, .f32⟩
  | 110 => ⟨S1x64, .f32⟩
  | 111 => ⟨S100000x64, .f32⟩
  | 112 => ⟨S100000x64, .f32⟩
  | 113 => ⟨S100000x64, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x64, .f32⟩
  | 123 => ⟨S3300000x1, .f32⟩
  | 124 => ⟨S3300000x64, .f32⟩
  | 125 => ⟨S3300000x64, .f32⟩
  | 126 => ⟨S_, .f32⟩
  | 127 => ⟨S100000x64, .f32⟩
  | _ => ⟨S100000x128, .f32⟩

abbrev hbmTy0_1 (i : Nat) : BufTy := match i % 128 with
  | 0 => ⟨S3300000x1, .i32⟩
  | 1 => ⟨S100000x64, .f32⟩
  | 2 => ⟨S1x64, .f32⟩
  | 3 => ⟨S100000x64, .f32⟩
  | 4 => ⟨S100000x64, .f32⟩
  | 5 => ⟨S1x1, .f32⟩
  | 6 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_17 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v97) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v99) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S100000x64, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x64, .f32⟩
  | 83 => ⟨S3300000x1, .f32⟩
  | 84 => ⟨S3300000x64, .f32⟩
  | 85 => ⟨S3300000x64, .f32⟩
  | 86 => ⟨S_, .f32⟩
  | 87 => ⟨S100000x64, .f32⟩
  | 88 => ⟨S3300000x1, .i32⟩
  | 89 => ⟨S100000x64, .f32⟩
  | 90 => ⟨S1x64, .f32⟩
  | 91 => ⟨S100000x64, .f32⟩
  | 92 => ⟨S100000x64, .f32⟩
  | 93 => ⟨S100000x64, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x64, .f32⟩
  | 103 => ⟨S3300000x1, .f32⟩
  | 104 => ⟨S3300000x64, .f32⟩
  | 105 => ⟨S3300000x64, .f32⟩
  | 106 => ⟨S_, .f32⟩
  | 107 => ⟨S100000x64, .f32⟩
  | 108 => ⟨S3300000x1, .i32⟩
  | 109 => ⟨S100000x64, .f32⟩
  | 110 => ⟨S1x64, .f32⟩
  | 111 => ⟨S100000x64, .f32⟩
  | 112 => ⟨S100000x64, .f32⟩
  | 113 => ⟨S100000x64, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x64, .f32⟩
  | 123 => ⟨S3300000x1, .f32⟩
  | 124 => ⟨S3300000x64, .f32⟩
  | 125 => ⟨S3300000x64, .f32⟩
  | 126 => ⟨S_, .f32⟩
  | 127 => ⟨S100000x64, .f32⟩
  | _ => ⟨S100000x128, .f32⟩

abbrev hbmTy0_1 (i : Nat) : BufTy := match i % 128 with
  | 0 => ⟨S3300000x1, .i32⟩
  | 1 => ⟨S100000x64, .f32⟩
  | 2 => ⟨S1x64, .f32⟩
  | 3 => ⟨S100000x64, .f32⟩
  | 4 => ⟨S100000x64, .f32⟩
  | 5 => ⟨S100000x1, .f32⟩
  | 6 => ⟨S1x1, .f32⟩
  | 7 => ⟨S100000x1, .f32⟩
  | 8 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_17 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run, with every buffer named.

  The program is five kernel launches among stretches of host operations. Its generated frame follows the buffers'
  contents from the launch memory through every stretch and every launch (the valuations W0 … W12 of the generated
  frame module) but keeps, of the last one, only that the arguments are unchanged. Here the same run is stated with
  its whole last valuation: after any weakly fair execution every unscoped buffer b of core c holds W12 m ρ c b.
-/
import proofs.«180866_j78597901517024_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final state every unscoped
    buffer of every core holds what the last boundary's valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same at one unscoped TensorCore reference. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W12 m ρ c (Proc.devRef .tc b)) :=
  (θ_run defs _ _).mono (fun r h c => h c _ (mem_uc b hb)) (run_all m ρ)

end Cert.KernelIdeal.Run

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.RefSegs.lean ====
/-
  The idealized reference program cut into stretches.

  The reference is one straight line of 124 host operations. It is cut here where the kernel program's own host
  stretches end: three stretches for the graph normalisation (the edge lists with self loops and the degrees; the
  selection of the inverse square roots where the degree is positive; one weight per edge), then, cut before each
  matrix product, four times "product, gather the rows at the sources, scale by the edge weights, add up at the targets,
  add the bias", then the last product and its bias. The valuation of the buffers after the whole line is the last of
  the valuations obtained stretch by stretch from the launch memory.
-/
import proofs.«180866_j78597901517024_1_alg».proof.Proof.RefRunP
import proofs.«180866_j78597901517024_1_alg».proof.Proof.LibStraightLine

set_option maxRecDepth 16384

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- Operations 0 … 17 of the line: the edge lists with self loops, the degrees, the comparison with 0 and the inverse square roots. -/
abbrev s0a : List (HloOp τ sig (Elt F)) :=
  [
    nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 18 … 20 of the line: the degree-positive selection (the called where-function's three operations). -/
abbrev s0b : List (HloOp τ sig (Elt F)) :=
  [
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 21 … 39 of the line: one weight per edge: the selected value gathered at the edge's source times that at its target. -/
abbrev s0c : List (HloOp τ sig (Elt F)) :=
  [
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Operations 40 … 59 of the line: the first product and its layer. -/
abbrev s1 : List (HloOp τ sig (Elt F)) :=
  [
    binary main_arg0 main_arg3 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- Operations 60 … 79 of the line: the second product and its layer. -/
abbrev s2 : List (HloOp τ sig (Elt F)) :=
  [
    binary main_v46 main_arg5 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v48 (broadcastInDim S3300000 ![] bcast_S_S3300000 : (⟨S_, .i32⟩ : BufTy).Contents (Elt F) → (⟨S3300000, .i32⟩ : BufTy).Contents (Elt F)),
    binary main_v3 main_v48 main_v49 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v50 (broadcastInDim S3300000 ![] bcast_S_S3300000 : (⟨S_, .i32⟩ : BufTy).Contents (Elt F) → (⟨S3300000, .i32⟩ : BufTy).Contents (Elt F)),
    binary main_v3 main_v50 main_v51 (addi : (⟨S3300000, .i32⟩ : BufTy).Contents (Elt F) → (⟨S3300000, .i32⟩ : BufTy).Contents (Elt F) → (⟨S3300000, .i32⟩ : BufTy).Contents (Elt F)),
    ternary main_v49 main_v51 main_v3 main_v52 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v52 main_v53 (broadcastInDim S3300000x1 ![0] bcast_S3300000_S3300000x1_0 : (⟨S3300000, .i32⟩ : BufTy).Contents (Elt F) → (⟨S3300000x1, .i32⟩ : BufTy).Contents (Elt F)),
    binary main_v47 main_v53 main_v54 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v55 (broadcastInDim S3300000x1 ![0] bcast_S3300000_S3300000x1_0 : (⟨S3300000, .f32⟩ : BufTy).Contents (Elt F) → (⟨S3300000x1, .f32⟩ : BufTy).Contents (Elt F)),
    unary main_v55 main_v56 (broadcastInDim S3300000x64 ![0, 1] bcast_S3300000x1_S3300000x64_0_1 : (⟨S3300000x1, .f32⟩ : BufTy).Contents (Elt F) → (⟨S3300000x64, .f32⟩ : BufTy).Contents (Elt F)),
    binary main_v54 main_v56 main_v57 (mulf : (⟨S3300000x64, .f32⟩ : BufTy).Contents (Elt F) → (⟨S3300000x64, .f32⟩ : BufTy).Contents (Elt F) → (⟨S3300000x64, .f32⟩ : BufTy).Contents (Elt F)),
    nullary main_cst_11 (constant S_ .f32 0x00000000#32),
    unary main_cst_11 main_v58 (broadcastInDim S100000x64 ![] bcast_S_S100000x64 : (⟨S_, .f32⟩ : BufTy).Contents (Elt F) → (⟨S100000x64, .f32⟩ : BufTy).Contents (Elt F)),
    unary main_v6 main_v59 (broadcastInDim S3300000x1 ![0] bcast_S3300000_S3300000x1_0 : (⟨S3300000, .i32⟩ : BufTy).Contents (Elt F) → (⟨S3300000x1, .i32⟩ : BufTy).Contents (Elt F)),
    ternary main_v58 main_v59 main_v57 main_v60 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg6 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)) ]

/-- Operations 80 … 99 of the line: the third product and its layer. -/
abbrev s3 : List (HloOp τ sig (Elt F)) :=
  [
    binary main_v63 main_arg7 main_v64 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_12 (constantI S_ 32 0#32),
    unary main_c_12 main_v65 (broadcastInDim S3300000 ![] bcast_S_S3300000 : (⟨S_, .i32⟩ : BufTy).Contents (Elt F) → (⟨S3300000, .i32⟩ : BufTy).Contents (Elt F)),
    binary main_v3 main_v65 main_v66 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v67 (broadcastInDim S3300000 ![] bcast_S_S3300000 : (⟨S_, .i32⟩ : BufTy).Contents (Elt F) → (⟨S3300000, .i32⟩ : BufTy).Contents (Elt F)),
    binary main_v3 main_v67 main_v68 (addi : (⟨S3300000, .i32⟩ : BufTy).Contents (Elt F) → (⟨S3300000, .i32⟩ : BufTy).Contents (Elt F) → (⟨S3300000, .i32⟩ : BufTy).Contents (Elt F)),
    ternary main_v66 main_v68 main_v3 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v69 main_v70 (broadcastInDim S3300000x1 ![0] bcast_S3300000_S3300000x1_0 : (⟨S3300000, .i32⟩ : BufTy).Contents (Elt F) → (⟨S3300000x1, .i32⟩ : BufTy).Contents (Elt F)),
    binary main_v64 main_v70 main_v71 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v72 (broadcastInDim S3300000x1 ![0] bcast_S3300000_S3300000x1_0 : (⟨S3300000, .f32⟩ : BufTy).Contents (Elt F) → (⟨S3300000x1, .f32⟩ : BufTy).Contents (Elt F)),
    unary main_v72 main_v73 (broadcastInDim S3300000x64 ![0, 1] bcast_S3300000x1_S3300000x64_0_1 : (⟨S3300000x1, .f32⟩ : BufTy).Contents (Elt F) → (⟨S3300000x64, .f32⟩ : BufTy).Contents (Elt F)),
    binary main_v71 main_v73 main_v74 (mulf : (⟨S3300000x64, .f32⟩ : BufTy).Contents (Elt F) → (⟨S3300000x64, .f32⟩ : BufTy).Contents (Elt F) → (⟨S3300000x64, .f32⟩ : BufTy).Contents (Elt F)),
    nullary main_cst_14 (constant S_ .f32 0x00000000#32),
    unary main_cst_14 main_v75 (broadcastInDim S100000x64 ![] bcast_S_S100000x64 : (⟨S_, .f32⟩ : BufTy).Contents (Elt F) → (⟨S100000x64, .f32⟩ : BufTy).Contents (Elt F)),
    unary main_v6 main_v76 (broadcastInDim S3300000x1 ![0] bcast_S3300000_S3300000x1_0 : (⟨S3300000, .i32⟩ : BufTy).Contents (Elt F) → (⟨S3300000x1, .i32⟩ : BufTy).Contents (Elt F)),
    ternary main_v75 main_v76 main_v74 main_v77 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg8 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v77 main_v79 main_v80 (addf : (⟨S100000x64, .f32⟩ : BufTy).Contents (Elt F) → (⟨S100000x64, .f32⟩ : BufTy).Contents (Elt F) → (⟨S100000x64, .f32⟩ : BufTy).Contents (Elt F)) ]

/-- Operations 100 … 119 of the line: the fourth product and its layer. -/
abbrev s4 : List (HloOp τ sig (Elt F)) :=
  [
    binary main_v80 main_arg9 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_15 (constantI S_ 32 0#32),
    unary main_c_15 main_v82 (broadcastInDim S3300000 ![] bcast_S_S3300000 : (⟨S_, .i32⟩ : BufTy).Contents (Elt F) → (⟨S3300000, .i32⟩ : BufTy).Contents (Elt F)),
    binary main_v3 main_v82 main_v83 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v84 (broadcastInDim S3300000 ![] bcast_S_S3300000 : (⟨S_, .i32⟩ : BufTy).Contents (Elt F) → (⟨S3300000, .i32⟩ : BufTy).Contents (Elt F)),
    binary main_v3 main_v84 main_v85 (addi : (⟨S3300000, .i32⟩ : BufTy).Contents (Elt F) → (⟨S3300000, .i32⟩ : BufTy).Contents (Elt F) → (⟨S3300000, .i32⟩ : BufTy).Contents (Elt F)),
    ternary main_v83 main_v85 main_v3 main_v86 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v86 main_v87 (broadcastInDim S3300000x1 ![0] bcast_S3300000_S3300000x1_0 : (⟨S3300000, .i32⟩ : BufTy).Contents (Elt F) → (⟨S3300000x1, .i32⟩ : BufTy).Contents (Elt F)),
    binary main_v81 main_v87 main_v88 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v89 (broadcastInDim S3300000x1 ![0] bcast_S3300000_S3300000x1_0 : (⟨S3300000, .f32⟩ : BufTy).Contents (Elt F) → (⟨S3300000x1, .f32⟩ : BufTy).Contents (Elt F)),
    unary main_v89 main_v90 (broadcastInDim S3300000x64 ![0, 1] bcast_S3300000x1_S3300000x64_0_1 : (⟨S3300000x1, .f32⟩ : BufTy).Contents (Elt F) → (⟨S3300000x64, .f32⟩ : BufTy).Contents (Elt F)),
    binary main_v88 main_v90 main_v91 (mulf : (⟨S3300000x64, .f32⟩ : BufTy).Contents (Elt F) → (⟨S3300000x64, .f32⟩ : BufTy).Contents (Elt F) → (⟨S3300000x64, .f32⟩ : BufTy).Contents (Elt F)),
    nullary main_cst_17 (constant S_ .f32 0x00000000#32),
    unary main_cst_17 main_v92 (broadcastInDim S100000x64 ![] bcast_S_S100000x64 : (⟨S_, .f32⟩ : BufTy).Contents (Elt F) → (⟨S100000x64, .f32⟩ : BufTy).Contents (Elt F)),
    unary main_v6 main_v93 (broadcastInDim S3300000x1 ![0] bcast_S3300000_S3300000x1_0 : (⟨S3300000, .i32⟩ : BufTy).Contents (Elt F) → (⟨S3300000x1, .i32⟩ : BufTy).Contents (Elt F)),
    ternary main_v92 main_v93 main_v91 main_v94 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg10 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v94 main_v96 main_v97 (addf : (⟨S100000x64, .f32⟩ : BufTy).Contents (Elt F) → (⟨S100000x64, .f32⟩ : BufTy).Contents (Elt F) → (⟨S100000x64, .f32⟩ : BufTy).Contents (Elt F)) ]

/-- Operations 120 … 123 of the line: the last product and its bias. -/
abbrev s5 : List (HloOp τ sig (Elt F)) :=
  [
    binary main_v97 main_arg11 main_v98 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg12 main_v99 (broadcastInDim S1x1 ![1] bcast_S1_S1x1_1 : (⟨S1, .f32⟩ : BufTy).Contents (Elt F) → (⟨S1x1, .f32⟩ : BufTy).Contents (Elt F)),
    unary main_v99 main_v100 (broadcastInDim S100000x1 ![0, 1] bcast_S1x1_S100000x1_0_1 : (⟨S1x1, .f32⟩ : BufTy).Contents (Elt F) → (⟨S100000x1, .f32⟩ : BufTy).Contents (Elt F)),
    binary main_v98 main_v100 main_v101 (addf : (⟨S100000x1, .f32⟩ : BufTy).Contents (Elt F) → (⟨S100000x1, .f32⟩ : BufTy).Contents (Elt F) → (⟨S100000x1, .f32⟩ : BufTy).Contents (Elt F)) ]

/-- The line is its stretches one after the other. -/
theorem ops_eq : (Cert.ReferenceIdeal.RunP.ops : List (HloOp τ sig (Elt F))) = s0a ++ (s0b ++ (s0c ++ (s1 ++ (s2 ++ (s3 ++ (s4 ++ s5)))))) := rfl

variable (m : (ℓ : Loc nD τ sig) → Buf (Elt F) ℓ)

/-- The buffers' contents at the launch and after each stretch. -/
abbrev U0 (c : Dev nD) : Valuation τ sig (Elt F) := launchContents m c
abbrev Ua (c : Dev nD) : Valuation τ sig (Elt F) := after s0a (U0 m c)
abbrev Ub (c : Dev nD) : Valuation τ sig (Elt F) := after s0b (Ua m c)
abbrev U1 (c : Dev nD) : Valuation τ sig (Elt F) := after s0c (Ub m c)
abbrev U2 (c : Dev nD) : Valuation τ sig (Elt F) := after s1 (U1 m c)
abbrev U3 (c : Dev nD) : Valuation τ sig (Elt F) := after s2 (U2 m c)
abbrev U4 (c : Dev nD) : Valuation τ sig (Elt F) := after s3 (U3 m c)
abbrev U5 (c : Dev nD) : Valuation τ sig (Elt F) := after s4 (U4 m c)
abbrev U6 (c : Dev nD) : Valuation τ sig (Elt F) := after s5 (U5 m c)

/-- After the whole line the buffers hold the last of these. -/
theorem after_ops (c : Dev nD) : after Cert.ReferenceIdeal.RunP.ops (launchContents m c) = U6 m c := by
  rw [ops_eq]
  simp only [Cert.LibStraightLine.after_append]

/-- The reference's run: every weakly fair execution terminates with every buffer at the last valuation. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = U6 m c (Proc.devRef .tc b) :=
  (θ_run defs _ _).mono (fun _ h c b => (h c b).trans (congrFun (after_ops m c) _)) (Cert.ReferenceIdeal.RunP.run m ρ)

end Cert.ReferenceIdeal.Segs

end
-- ==== Proof.RefFrame.lean ====
/-
  The idealized reference program leaves its arguments alone.

  Every operation of the reference's line writes one buffer of its own, and none of them is an argument; so each
  argument buffer holds, after the line, what it held at the launch.
-/
import proofs.«180866_j78597901517024_1_alg».proof.Proof.RefSegs

set_option maxRecDepth 16384

noncomputable section

namespace Cert.ReferenceIdeal.Segs

open Cert.ReferenceIdeal Cert.ReferenceIdeal.Gen Idealize.ShloMosaic Idealize.ShloMosaic.TcCoe Idealize.SL.Sem Idealize.ShloMosaic.StableHlo
open Cert.LibStraightLine

variable {F : FTy → Type} [FloatOps F]

/-- The buffers the line's operations write, in order. -/
abbrev written : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_v47, main_c_9, main_v48, main_v49, main_c_10, main_v50, main_v51, main_v52, main_v53, main_v54, main_v55, main_v56, main_v57, main_cst_11, main_v58, main_v59, main_v60, main_v61, main_v62, main_v63, main_v64, main_c_12, main_v65, main_v66, main_c_13, main_v67, main_v68, main_v69, main_v70, main_v71, main_v72, main_v73, main_v74, main_cst_14, main_v75, main_v76, main_v77, main_v78, main_v79, main_v80, main_v81, main_c_15, main_v82, main_v83, main_c_16, main_v84, main_v85, main_v86, main_v87, main_v88, main_v89, main_v90, main_v91, main_cst_17, main_v92, main_v93, main_v94, main_v95, main_v96, main_v97, main_v98, main_v99, main_v100, main_v101]

theorem writesAre : WritesAre (Cert.ReferenceIdeal.RunP.ops : List (HloOp τ sig (Elt F))) written := rfl

variable (m : (ℓ : Loc nD τ sig) → Buf (Elt F) ℓ)

/-- An argument buffer after the whole line holds its launch contents. -/
theorem kept (c : Dev nD) (r : Ref sig .tc) (hr : r ∉ written) :
    U6 m c (Proc.devRef .tc r) = m ((c.tc : Thread nD τ).loc r) :=
  (congrFun (after_ops m c).symm _).trans (untouched_at (writesAre (F := F)) hr)

end Cert.ReferenceIdeal.Segs

end
-- ==== Proof.Agree0.lean ====
/-
  The two idealized programs agree on the graph normalisation.

  Both programs begin with the same host operations on the edge list: the sources and the targets with one self loop per
  node appended, the degree of every node (a scatter-add of ones at the targets), its inverse square root where the
  degree is positive and 0 elsewhere, and for every edge the product of that value at its source and at its target.
  Read off the two programs' valuations after each of the three stretches of this part, from launch memories that
  hold the same arguments, the buffers that later stretches read hold the same arrays: the same operations of the
  same operands.
-/
import proofs.«180866_j78597901517024_1_alg».proof.Proof.KernelRun
import proofs.«180866_j78597901517024_1_alg».proof.Proof.RefSegs
import Idealize.ShloMosaic.PureOps.Ideal

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The two launch memories hold the same argument arrays. -/
def Agree : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧     m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧     m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧     m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧     m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧     m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧     m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧     m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧     m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧     m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧     m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧     m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧     m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

variable {m ρ m'}

/-! ## After the first stretch: the edge lists, the comparison and the inverse square roots -/

theorem a1_arg0 (h : Agree m m') (c : Dev Cert.KernelIdeal.nD) :
    Cert.KernelIdeal.Gen.W1 m ρ c (Proc.devRef .tc Cert.KernelIdeal.main_arg0) = Cert.ReferenceIdeal.Segs.Ua m' c (Proc.devRef .tc Cert.ReferenceIdeal.main_arg0) := by
  show StableHlo.after Cert.KernelIdeal.Gen.hostOps0 (Cert.KernelIdeal.Gen.W0 m ρ c) (Proc.devRef .tc Cert.KernelIdeal.main_arg0) = StableHlo.after Cert.ReferenceIdeal.Segs.s0a (Cert.ReferenceIdeal.Segs.U0 m' c) (Proc.devRef .tc Cert.ReferenceIdeal.main_arg0)
  generalize hVK : Cert.KernelIdeal.Gen.W0 m ρ c = VK
  generalize hVR : Cert.ReferenceIdeal.Segs.U0 m' c = VR
  after_results_simp
  subst hVK hVR
  exact ((h c).1).symm

theorem a1_arg3 (h : Agree m m') (c : Dev Cert.KernelIdeal.nD) :
    Cert.KernelIdeal.Gen.W1 m ρ c (Proc.devRef .tc Cert.KernelIdeal.main_arg3) = Cert.ReferenceIdeal.Segs.Ua m' c (Proc.devRef .tc Cert.ReferenceIdeal.main_arg3) := by
  show StableHlo.after Cert.KernelIdeal.Gen.hostOps0 (Cert.KernelIdeal.Gen.W0 m ρ c) (Proc.devRef .tc Cert.KernelIdeal.main_arg3) = StableHlo.after Cert.ReferenceIdeal.Segs.s0a (Cert.ReferenceIdeal.Segs.U0 m' c) (Proc.devRef .tc Cert.ReferenceIdeal.main_arg3)
  generalize hVK : Cert.KernelIdeal.Gen.W0 m ρ c = VK
  generalize hVR : Cert.ReferenceIdeal.Segs.U0 m' c = VR
  after_results_simp
  subst hVK hVR
  exact ((h c).2.2.2.1).symm

theorem a1_arg4 (h : Agree m m') (c : Dev Cert.KernelIdeal.nD) :
    Cert.KernelIdeal.Gen.W1 m ρ c (Proc.devRef .tc Cert.KernelIdeal.main_arg4) = Cert.ReferenceIdeal.Segs.Ua m' c (Proc.devRef .tc Cert.ReferenceIdeal.main_arg4) := by
  show StableHlo.after Cert.KernelIdeal.Gen.hostOps0 (Cert.KernelIdeal.Gen.W0 m ρ c) (Proc.devRef .tc Cert.KernelIdeal.main_arg4) = StableHlo.after Cert.ReferenceIdeal.Segs.s0a (Cert.ReferenceIdeal.Segs.U0 m' c) (Proc.devRef .tc Cert.ReferenceIdeal.main_arg4)
  generalize hVK : Cert.KernelIdeal.Gen.W0 m ρ c = VK
  generalize hVR : Cert.ReferenceIdeal.Segs.U0 m' c = VR
  after_results_simp
  subst hVK hVR
  exact ((h c).2.2.2.2.1).symm

theorem a1_arg5 (h : Agree m m') (c : Dev Cert.KernelIdeal.nD) :
    Cert.KernelIdeal.Gen.W1 m ρ c (Proc.devRef .tc Cert.KernelIdeal.main_arg5) = Cert.ReferenceIdeal.Segs.Ua m' c (Proc.devRef .tc Cert.ReferenceIdeal.main_arg5) := by
  show StableHlo.after Cert.KernelIdeal.Gen.hostOps0 (Cert.KernelIdeal.Gen.W0 m ρ c) (Proc.devRef .tc Cert.KernelIdeal.main_arg5) = StableHlo.after Cert.ReferenceIdeal.Segs.s0a (Cert.ReferenceIdeal.Segs.U0 m' c) (Proc.devRef .tc Cert.ReferenceIdeal.main_arg5)
  generalize hVK : Cert.KernelIdeal.Gen.W0 m ρ c = VK
  generalize hVR : Cert.ReferenceIdeal.Segs.U0 m' c = VR
  after_results_simp
  subst hVK hVR
  exact ((h c).2.2.2.2.2.1).symm

theorem a1_arg6 (h : Agree m m') (c : Dev Cert.KernelIdeal.nD) :
    Cert.KernelIdeal.Gen.W1 m ρ c (Proc.devRef .tc Cert.KernelIdeal.main_arg6) = Cert.ReferenceIdeal.Segs.Ua m' c (Proc.devRef .tc Cert.ReferenceIdeal.main_arg6) := by
  show StableHlo.after Cert.KernelIdeal.Gen.hostOps0 (Cert.KernelIdeal.Gen.W0 m ρ c) (Proc.devRef .tc Cert.KernelIdeal.main_arg6) = StableHlo.after Cert.ReferenceIdeal.Segs.s0a (Cert.ReferenceIdeal.Segs.U0 m' c) (Proc.devRef .tc Cert.ReferenceIdeal.main_arg6)
  generalize hVK : Cert.KernelIdeal.Gen.W0 m ρ c = VK
  generalize hVR : Cert.ReferenceIdeal.Segs.U0 m' c = VR
  after_results_simp
  subst hVK hVR
  exact ((h c).2.2.2.2.2.2.1).symm

theorem a1_arg7 (h : Agree m m') (c : Dev Cert.KernelIdeal.nD) :
    Cert.KernelIdeal.Gen.W1 m ρ c (Proc.devRef .tc Cert.KernelIdeal.main_arg7) = Cert.ReferenceIdeal.Segs.Ua m' c (Proc.devRef .tc Cert.ReferenceIdeal.main_arg7) := by
  show StableHlo.after Cert.KernelIdeal.Gen.hostOps0 (Cert.KernelIdeal.Gen.W0 m ρ c) (Proc.devRef .tc Cert.KernelIdeal.main_arg7) = StableHlo.after Cert.ReferenceIdeal.Segs.s0a (Cert.ReferenceIdeal.Segs.U0 m' c) (Proc.devRef .tc Cert.ReferenceIdeal.main_arg7)
  generalize hVK : Cert.KernelIdeal.Gen.W0 m ρ c = VK
  generalize hVR : Cert.ReferenceIdeal.Segs.U0 m' c = VR
  after_results_simp
  subst hVK hVR
  exact ((h c).2.2.2.2.2.2.2.1).symm

theorem a1_arg8 (h : Agree m m') (c : Dev Cert.KernelIdeal.nD) :
    Cert.KernelIdeal.Gen.W1 m ρ c (Proc.devRef .tc Cert.KernelIdeal.main_arg8) = Cert.ReferenceIdeal.Segs.Ua m' c (Proc.devRef .tc Cert.ReferenceIdeal.main_arg8) := by
  show StableHlo.after Cert.KernelIdeal.Gen.hostOps0 (Cert.KernelIdeal.Gen.W0 m ρ c) (Proc.devRef .tc Cert.KernelIdeal.main_arg8) = StableHlo.after Cert.ReferenceIdeal.Segs.s0a (Cert.ReferenceIdeal.Segs.U0 m' c) (Proc.devRef .tc Cert.ReferenceIdeal.main_arg8)
  generalize hVK : Cert.KernelIdeal.Gen.W0 m ρ c = VK
  generalize hVR : Cert.ReferenceIdeal.Segs.U0 m' c = VR
  after_results_simp
  subst hVK hVR
  exact ((h c).2.2.2.2.2.2.2.2.1).symm

theorem a1_arg9 (h : Agree m m') (c : Dev Cert.KernelIdeal.nD) :
    Cert.KernelIdeal.Gen.W1 m ρ c (Proc.devRef .tc Cert.KernelIdeal.main_arg9) = Cert.ReferenceIdeal.Segs.Ua m' c (Proc.devRef .tc Cert.ReferenceIdeal.main_arg9) := by
  show StableHlo.after Cert.KernelIdeal.Gen.hostOps0 (Cert.KernelIdeal.Gen.W0 m ρ c) (Proc.devRef .tc Cert.KernelIdeal.main_arg9) = StableHlo.after Cert.ReferenceIdeal.Segs.s0a (Cert.ReferenceIdeal.Segs.U0 m' c) (Proc.devRef .tc Cert.ReferenceIdeal.main_arg9)
  generalize hVK : Cert.KernelIdeal.Gen.W0 m ρ c = VK
  generalize hVR : Cert.ReferenceIdeal.Segs.U0 m' c = VR
  after_results_simp
  subst hVK hVR
  exact ((h c).2.2.2.2.2.2.2.2.2.1).symm

theorem a1_arg10 (h : Agree m m') (c : Dev Cert.KernelIdeal.nD) :
    Cert.KernelIdeal.Gen.W1 m ρ c (Proc.devRef .tc Cert.KernelIdeal.main_arg10) = Cert.ReferenceIdeal.Segs.Ua m' c (Proc.devRef .tc Cert.ReferenceIdeal.main_arg10) := by
  show StableHlo.after Cert.KernelIdeal.Gen.hostOps0 (Cert.KernelIdeal.Gen.W0 m ρ c) (Proc.devRef .tc Cert.KernelIdeal.main_arg10) = StableHlo.after Cert.ReferenceIdeal.Segs.s0a (Cert.ReferenceIdeal.Segs.U0 m' c) (Proc.devRef .tc Cert.ReferenceIdeal.main_arg10)
  generalize hVK : Cert.KernelIdeal.Gen.W0 m ρ c = VK
  generalize hVR : Cert.ReferenceIdeal.Segs.U0 m' c = VR
  after_results_simp
  subst hVK hVR
  exact ((h c).2.2.2.2.2.2.2.2.2.2.1).symm

theorem a1_arg11 (h : Agree m m') (c : Dev Cert.KernelIdeal.nD) :
    Cert.KernelIdeal.Gen.W1 m ρ c (Proc.devRef .tc Cert.KernelIdeal.main_arg11) = Cert.ReferenceIdeal.Segs.Ua m' c (Proc.devRef .tc Cert.ReferenceIdeal.main_arg11) := by
  show StableHlo.after Cert.KernelIdeal.Gen.hostOps0 (Cert.KernelIdeal.Gen.W0 m ρ c) (Proc.devRef .tc Cert.KernelIdeal.main_arg11) = StableHlo.after Cert.ReferenceIdeal.Segs.s0a (Cert.ReferenceIdeal.Segs.U0 m' c) (Proc.devRef .tc Cert.ReferenceIdeal.main_arg11)
  generalize hVK : Cert.KernelIdeal.Gen.W0 m ρ c = VK
  generalize hVR : Cert.ReferenceIdeal.Segs.U0 m' c = VR
  after_results_simp
  subst hVK hVR
  exact ((h c).2.2.2.2.2.2.2.2.2.2.2.1).symm

theorem a1_arg12 (h : Agree m m') (c : Dev Cert.KernelIdeal.nD) :
    Cert.KernelIdeal.Gen.W1 m ρ c (Proc.devRef .tc Cert.KernelIdeal.main_arg12) = Cert.ReferenceIdeal.Segs.Ua m' c (Proc.devRef .tc Cert.ReferenceIdeal.main_arg12) := by
  show StableHlo.after Cert.KernelIdeal.Gen.hostOps0 (Cert.KernelIdeal.Gen.W0 m ρ c) (Proc.devRef .tc Cert.KernelIdeal.main_arg12) = StableHlo.after Cert.ReferenceIdeal.Segs.s0a (Cert.ReferenceIdeal.Segs.U0 m' c) (Proc.devRef .tc Cert.ReferenceIdeal.main_arg12)
  generalize hVK : Cert.KernelIdeal.Gen.W0 m ρ c = VK
  generalize hVR : Cert.ReferenceIdeal.Segs.U0 m' c = VR
  after_results_simp
  subst hVK hVR
  exact ((h c).2.2.2.2.2.2.2.2.2.2.2.2).symm

/-- The edge list at the launch. -/
theorem a0_arg1 (h : Agree m m') (c : Dev Cert.KernelIdeal.nD) :
    Cert.KernelIdeal.Gen.W0 m ρ c (Proc.devRef .tc Cert.KernelIdeal.main_arg1) = Cert.ReferenceIdeal.Segs.U0 m' c (Proc.devRef .tc Cert.ReferenceIdeal.main_arg1) := by
  exact ((h c).2.1).symm

theorem a1_v3 (h : Agree m m') (c : Dev Cert.KernelIdeal.nD) :
    Cert.KernelIdeal.Gen.W1 m ρ c (Proc.devRef .tc Cert.KernelIdeal.main_v3) = Cert.ReferenceIdeal.Segs.Ua m' c (Proc.devRef .tc Cert.ReferenceIdeal.main_v3) := by
  show StableHlo.after Cert.KernelIdeal.Gen.hostOps0 (Cert.KernelIdeal.Gen.W0 m ρ c) (Proc.devRef .tc Cert.KernelIdeal.main_v3) = StableHlo.after Cert.ReferenceIdeal.Segs.s0a (Cert.ReferenceIdeal.Segs.U0 m' c) (Proc.devRef .tc Cert.ReferenceIdeal.main_v3)
  generalize hVK : Cert.KernelIdeal.Gen.W0 m ρ c = VK
  generalize hVR : Cert.ReferenceIdeal.Segs.U0 m' c = VR
  after_results
  subst hVK hVR
  rw [a0_arg1 h c]
  first | done | rfl

theorem a1_v6 (h : Agree m m') (c : Dev Cert.KernelIdeal.nD) :
    Cert.KernelIdeal.Gen.W1 m ρ c (Proc.devRef .tc Cert.KernelIdeal.main_v6) = Cert.ReferenceIdeal.Segs.Ua m' c (Proc.devRef .tc Cert.ReferenceIdeal.main_v6) := by
  show StableHlo.after Cert.KernelIdeal.Gen.hostOps0 (Cert.KernelIdeal.Gen.W0 m ρ c) (Proc.devRef .tc Cert.KernelIdeal.main_v6) = StableHlo.after Cert.ReferenceIdeal.Segs.s0a (Cert.ReferenceIdeal.Segs.U0 m' c) (Proc.devRef .tc Cert.ReferenceIdeal.main_v6)
  generalize hVK : Cert.KernelIdeal.Gen.W0 m ρ c = VK
  generalize hVR : Cert.ReferenceIdeal.Segs.U0 m' c = VR
  after_results
  subst hVK hVR
  rw [a0_arg1 h c]
  first | done | rfl

theorem a1_v12 (h : Agree m m') (c : Dev Cert.KernelIdeal.nD) :
    Cert.KernelIdeal.Gen.W1 m ρ c (Proc.devRef .tc Cert.KernelIdeal.main_v12) = Cert.ReferenceIdeal.Segs.Ua m' c (Proc.devRef .tc Cert.ReferenceIdeal.main_v12) := by
  show StableHlo.after Cert.KernelIdeal.Gen.hostOps0 (Cert.KernelIdeal.Gen.W0 m ρ c) (Proc.devRef .tc Cert.KernelIdeal.main_v12) = StableHlo.after Cert.ReferenceIdeal.Segs.s0a (Cert.ReferenceIdeal.Segs.U0 m' c) (Proc.devRef .tc Cert.ReferenceIdeal.main_v12)
  generalize hVK : Cert.KernelIdeal.Gen.W0 m ρ c = VK
  generalize hVR : Cert.ReferenceIdeal.Segs.U0 m' c = VR
  after_results
  subst hVK hVR
  rw [a0_arg1 h c]
  first | done | rfl

theorem a1_v13 (h : Agree m m') (c : Dev Cert.KernelIdeal.nD) :
    Cert.KernelIdeal.Gen.W1 m ρ c (Proc.devRef .tc Cert.KernelIdeal.main_v13) = Cert.ReferenceIdeal.Segs.Ua m' c (Proc.devRef .tc Cert.ReferenceIdeal.main_v13) := by
  show StableHlo.after Cert.KernelIdeal.Gen.hostOps0 (Cert.KernelIdeal.Gen.W0 m ρ c) (Proc.devRef .tc Cert.KernelIdeal.main_v13) = StableHlo.after Cert.ReferenceIdeal.Segs.s0a (Cert.ReferenceIdeal.Segs.U0 m' c) (Proc.devRef .tc Cert.ReferenceIdeal.main_v13)
  generalize hVK : Cert.KernelIdeal.Gen.W0 m ρ c = VK
  generalize hVR : Cert.ReferenceIdeal.Segs.U0 m' c = VR
  after_results
  subst hVK hVR
  rw [a0_arg1 h c]
  first | done | rfl

theorem a1_cst_2 (h : Agree m m') (c : Dev Cert.KernelIdeal.nD) :
    Cert.KernelIdeal.Gen.W1 m ρ c (Proc.devRef .tc Cert.KernelIdeal.main_cst_2) = Cert.ReferenceIdeal.Segs.Ua m' c (Proc.devRef .tc Cert.ReferenceIdeal.main_cst_2) := by
  show StableHlo.after Cert.KernelIdeal.Gen.hostOps0 (Cert.KernelIdeal.Gen.W0 m ρ c) (Proc.devRef .tc Cert.KernelIdeal.main_cst_2) = StableHlo.after Cert.ReferenceIdeal.Segs.s0a (Cert.ReferenceIdeal.Segs.U0 m' c) (Proc.devRef .tc Cert.ReferenceIdeal.main_cst_2)
  generalize hVK : Cert.KernelIdeal.Gen.W0 m ρ c = VK
  generalize hVR : Cert.ReferenceIdeal.Segs.U0 m' c = VR
  after_results

/-! ## After the second stretch: the selection -/

theorem a2_arg0 (h : Agree m m') (c : Dev Cert.KernelIdeal.nD) :
    Cert.KernelIdeal.Gen.W2 m ρ c (Proc.devRef .tc Cert.KernelIdeal.main_arg0) = Cert.ReferenceIdeal.Segs.Ub m' c (Proc.devRef .tc Cert.ReferenceIdeal.main_arg0) := by
  show StableHlo.after Cert.KernelIdeal.Gen.hostOps0_1 (Cert.KernelIdeal.Gen.W1 m ρ c) (Proc.devRef .tc Cert.KernelIdeal.main_arg0) = StableHlo.after Cert.ReferenceIdeal.Segs.s0b (Cert.ReferenceIdeal.Segs.Ua m' c) (Proc.devRef .tc Cert.ReferenceIdeal.main_arg0)
  generalize hVK : Cert.KernelIdeal.Gen.W1 m ρ c = VK
  generalize hVR : Cert.ReferenceIdeal.Segs.Ua m' c = VR
  after_results_simp
  subst hVK hVR
  exact a1_arg0 h c

theorem a2_arg3 (h : Agree m m') (c : Dev Cert.KernelIdeal.nD) :
    Cert.KernelIdeal.Gen.W2 m ρ c (Proc.devRef .tc Cert.KernelIdeal.main_arg3) = Cert.ReferenceIdeal.Segs.Ub m' c (Proc.devRef .tc Cert.ReferenceIdeal.main_arg3) := by
  show StableHlo.after Cert.KernelIdeal.Gen.hostOps0_1 (Cert.KernelIdeal.Gen.W1 m ρ c) (Proc.devRef .tc Cert.KernelIdeal.main_arg3) = StableHlo.after Cert.ReferenceIdeal.Segs.s0b (Cert.ReferenceIdeal.Segs.Ua m' c) (Proc.devRef .tc Cert.ReferenceIdeal.main_arg3)
  generalize hVK : Cert.KernelIdeal.Gen.W1 m ρ c = VK
  generalize hVR : Cert.ReferenceIdeal.Segs.Ua m' c = VR
  after_results_simp
  subst hVK hVR
  exact a1_arg3 h c

theorem a2_arg4 (h : Agree m m') (c : Dev Cert.KernelIdeal.nD) :
    Cert.KernelIdeal.Gen.W2 m ρ c (Proc.devRef .tc Cert.KernelIdeal.main_arg4) = Cert.ReferenceIdeal.Segs.Ub m' c (Proc.devRef .tc Cert.ReferenceIdeal.main_arg4) := by
  show StableHlo.after Cert.KernelIdeal.Gen.hostOps0_1 (Cert.KernelIdeal.Gen.W1 m ρ c) (Proc.devRef .tc Cert.KernelIdeal.main_arg4) = StableHlo.after Cert.ReferenceIdeal.Segs.s0b (Cert.ReferenceIdeal.Segs.Ua m' c) (Proc.devRef .tc Cert.ReferenceIdeal.main_arg4)
  generalize hVK : Cert.KernelIdeal.Gen.W1 m ρ c = VK
  generalize hVR : Cert.ReferenceIdeal.Segs.Ua m' c = VR
  after_results_simp
  subst hVK hVR
  exact a1_arg4 h c

theorem a2_arg5 (h : Agree m m') (c : Dev Cert.KernelIdeal.nD) :
    Cert.KernelIdeal.Gen.W2 m ρ c (Proc.devRef .tc Cert.KernelIdeal.main_arg5) = Cert.ReferenceIdeal.Segs.Ub m' c (Proc.devRef .tc Cert.ReferenceIdeal.main_arg5) := by
  show StableHlo.after Cert.KernelIdeal.Gen.hostOps0_1 (Cert.KernelIdeal.Gen.W1 m ρ c) (Proc.devRef .tc Cert.KernelIdeal.main_arg5) = StableHlo.after Cert.ReferenceIdeal.Segs.s0b (Cert.ReferenceIdeal.Segs.Ua m' c) (Proc.devRef .tc Cert.ReferenceIdeal.main_arg5)
  generalize hVK : Cert.KernelIdeal.Gen.W1 m ρ c = VK
  generalize hVR : Cert.ReferenceIdeal.Segs.Ua m' c = VR
  after_results_simp
  subst hVK hVR
  exact a1_arg5 h c

theorem a2_arg6 (h : Agree m m') (c : Dev Cert.KernelIdeal.nD) :
    Cert.KernelIdeal.Gen.W2 m ρ c (Proc.devRef .tc Cert.KernelIdeal.main_arg6) = Cert.ReferenceIdeal.Segs.Ub m' c (Proc.devRef .tc Cert.ReferenceIdeal.main_arg6) := by
  show StableHlo.after Cert.KernelIdeal.Gen.hostOps0_1 (Cert.KernelIdeal.Gen.W1 m ρ c) (Proc.devRef .tc Cert.KernelIdeal.main_arg6) = StableHlo.after Cert.ReferenceIdeal.Segs.s0b (Cert.ReferenceIdeal.Segs.Ua m' c) (Proc.devRef .tc Cert.ReferenceIdeal.main_arg6)
  generalize hVK : Cert.KernelIdeal.Gen.W1 m ρ c = VK
  generalize hVR : Cert.ReferenceIdeal.Segs.Ua m' c = VR
  after_results_simp
  subst hVK hVR
  exact a1_arg6 h c

theorem a2_arg7 (h : Agree m m') (c : Dev Cert.KernelIdeal.nD) :
    Cert.KernelIdeal.Gen.W2 m ρ c (Proc.devRef .tc Cert.KernelIdeal.main_arg7) = Cert.ReferenceIdeal.Segs.Ub m' c (Proc.devRef .tc Cert.ReferenceIdeal.main_arg7) := by
  show StableHlo.after Cert.KernelIdeal.Gen.hostOps0_1 (Cert.KernelIdeal.Gen.W1 m ρ c) (Proc.devRef .tc Cert.KernelIdeal.main_arg7) = StableHlo.after Cert.ReferenceIdeal.Segs.s0b (Cert.ReferenceIdeal.Segs.Ua m' c) (Proc.devRef .tc Cert.ReferenceIdeal.main_arg7)
  generalize hVK : Cert.KernelIdeal.Gen.W1 m ρ c = VK
  generalize hVR : Cert.ReferenceIdeal.Segs.Ua m' c = VR
  after_results_simp
  subst hVK hVR
  exact a1_arg7 h c

theorem a2_arg8 (h : Agree m m') (c : Dev Cert.KernelIdeal.nD) :
    Cert.KernelIdeal.Gen.W2 m ρ c (Proc.devRef .tc Cert.KernelIdeal.main_arg8) = Cert.ReferenceIdeal.Segs.Ub m' c (Proc.devRef .tc Cert.ReferenceIdeal.main_arg8) := by
  show StableHlo.after Cert.KernelIdeal.Gen.hostOps0_1 (Cert.KernelIdeal.Gen.W1 m ρ c) (Proc.devRef .tc Cert.KernelIdeal.main_arg8) = StableHlo.after Cert.ReferenceIdeal.Segs.s0b (Cert.ReferenceIdeal.Segs.Ua m' c) (Proc.devRef .tc Cert.ReferenceIdeal.main_arg8)
  generalize hVK : Cert.KernelIdeal.Gen.W1 m ρ c = VK
  generalize hVR : Cert.ReferenceIdeal.Segs.Ua m' c = VR
  after_results_simp
  subst hVK hVR
  exact a1_arg8 h c

theorem a2_arg9 (h : Agree m m') (c : Dev Cert.KernelIdeal.nD) :
    Cert.KernelIdeal.Gen.W2 m ρ c (Proc.devRef .tc Cert.KernelIdeal.main_arg9) = Cert.ReferenceIdeal.Segs.Ub m' c (Proc.devRef .tc Cert.ReferenceIdeal.main_arg9) := by
  show StableHlo.after Cert.KernelIdeal.Gen.hostOps0_1 (Cert.KernelIdeal.Gen.W1 m ρ c) (Proc.devRef .tc Cert.KernelIdeal.main_arg9) = StableHlo.after Cert.ReferenceIdeal.Segs.s0b (Cert.ReferenceIdeal.Segs.Ua m' c) (Proc.devRef .tc Cert.ReferenceIdeal.main_arg9)
  generalize hVK : Cert.KernelIdeal.Gen.W1 m ρ c = VK
  generalize hVR : Cert.ReferenceIdeal.Segs.Ua m' c = VR
  after_results_simp
  subst hVK hVR
  exact a1_arg9 h c

theorem a2_arg10 (h : Agree m m') (c : Dev Cert.KernelIdeal.nD) :
    Cert.KernelIdeal.Gen.W2 m ρ c (Proc.devRef .tc Cert.KernelIdeal.main_arg10) = Cert.ReferenceIdeal.Segs.Ub m' c (Proc.devRef .tc Cert.ReferenceIdeal.main_arg10) := by
  show StableHlo.after Cert.KernelIdeal.Gen.hostOps0_1 (Cert.KernelIdeal.Gen.W1 m ρ c) (Proc.devRef .tc Cert.KernelIdeal.main_arg10) = StableHlo.after Cert.ReferenceIdeal.Segs.s0b (Cert.ReferenceIdeal.Segs.Ua m' c) (Proc.devRef .tc Cert.ReferenceIdeal.main_arg10)
  generalize hVK : Cert.KernelIdeal.Gen.W1 m ρ c = VK
  generalize hVR : Cert.ReferenceIdeal.Segs.Ua m' c = VR
  after_results_simp
  subst hVK hVR
  exact a1_arg10 h c

theorem a2_arg11 (h : Agree m m') (c : Dev Cert.KernelIdeal.nD) :
    Cert.KernelIdeal.Gen.W2 m ρ c (Proc.devRef .tc Cert.KernelIdeal.main_arg11) = Cert.ReferenceIdeal.Segs.Ub m' c (Proc.devRef .tc Cert.ReferenceIdeal.main_arg11) := by
  show StableHlo.after Cert.KernelIdeal.Gen.hostOps0_1 (Cert.KernelIdeal.Gen.W1 m ρ c) (Proc.devRef .tc Cert.KernelIdeal.main_arg11) = StableHlo.after Cert.ReferenceIdeal.Segs.s0b (Cert.ReferenceIdeal.Segs.Ua m' c) (Proc.devRef .tc Cert.ReferenceIdeal.main_arg11)
  generalize hVK : Cert.KernelIdeal.Gen.W1 m ρ c = VK
  generalize hVR : Cert.ReferenceIdeal.Segs.Ua m' c = VR
  after_results_simp
  subst hVK hVR
  exact a1_arg11 h c

theorem a2_arg12 (h : Agree m m') (c : Dev Cert.KernelIdeal.nD) :
    Cert.KernelIdeal.Gen.W2 m ρ c (Proc.devRef .tc Cert.KernelIdeal.main_arg12) = Cert.ReferenceIdeal.Segs.Ub m' c (Proc.devRef .tc Cert.ReferenceIdeal.main_arg12) := by
  show StableHlo.after Cert.KernelIdeal.Gen.hostOps0_1 (Cert.KernelIdeal.Gen.W1 m ρ c) (Proc.devRef .tc Cert.KernelIdeal.main_arg12) = StableHlo.after Cert.ReferenceIdeal.Segs.s0b (Cert.ReferenceIdeal.Segs.Ua m' c) (Proc.devRef .tc Cert.ReferenceIdeal.main_arg12)
  generalize hVK : Cert.KernelIdeal.Gen.W1 m ρ c = VK
  generalize hVR : Cert.ReferenceIdeal.Segs.Ua m' c = VR
  after_results_simp
  subst hVK hVR
  exact a1_arg12 h c

theorem a2_v3 (h : Agree m m') (c : Dev Cert.KernelIdeal.nD) :
    Cert.KernelIdeal.Gen.W2 m ρ c (Proc.devRef .tc Cert.KernelIdeal.main_v3) = Cert.ReferenceIdeal.Segs.Ub m' c (Proc.devRef .tc Cert.ReferenceIdeal.main_v3) := by
  show StableHlo.after Cert.KernelIdeal.Gen.hostOps0_1 (Cert.KernelIdeal.Gen.W1 m ρ c) (Proc.devRef .tc Cert.KernelIdeal.main_v3) = StableHlo.after Cert.ReferenceIdeal.Segs.s0b (Cert.ReferenceIdeal.Segs.Ua m' c) (Proc.devRef .tc Cert.ReferenceIdeal.main_v3)
  generalize hVK : Cert.KernelIdeal.Gen.W1 m ρ c = VK
  generalize hVR : Cert.ReferenceIdeal.Segs.Ua m' c = VR
  after_results_simp
  subst hVK hVR
  exact a1_v3 h c

theorem a2_v6 (h : Agree m m') (c : Dev Cert.KernelIdeal.nD) :
    Cert.KernelIdeal.Gen.W2 m ρ c (Proc.devRef .tc Cert.KernelIdeal.main_v6) = Cert.ReferenceIdeal.Segs.Ub m' c (Proc.devRef .tc Cert.ReferenceIdeal.main_v6) := by
  show StableHlo.after Cert.KernelIdeal.Gen.hostOps0_1 (Cert.KernelIdeal.Gen.W1 m ρ c) (Proc.devRef .tc Cert.KernelIdeal.main_v6) = StableHlo.after Cert.ReferenceIdeal.Segs.s0b (Cert.ReferenceIdeal.Segs.Ua m' c) (Proc.devRef .tc Cert.ReferenceIdeal.main_v6)
  generalize hVK : Cert.KernelIdeal.Gen.W1 m ρ c = VK
  generalize hVR : Cert.ReferenceIdeal.Segs.Ua m' c = VR
  after_results_simp
  subst hVK hVR
  exact a1_v6 h c

theorem a2_v14 (h : Agree m m') (c : Dev Cert.KernelIdeal.nD) :
    Cert.KernelIdeal.Gen.W2 m ρ c (Proc.devRef .tc Cert.KernelIdeal.main_v14) = Cert.ReferenceIdeal.Segs.Ub m' c (Proc.devRef .tc Cert.ReferenceIdeal.main_v14) := by
  show StableHlo.after Cert.KernelIdeal.Gen.hostOps0_1 (Cert.KernelIdeal.Gen.W1 m ρ c) (Proc.devRef .tc Cert.KernelIdeal.main_v14) = StableHlo.after Cert.ReferenceIdeal.Segs.s0b (Cert.ReferenceIdeal.Segs.Ua m' c) (Proc.devRef .tc Cert.ReferenceIdeal.main_v14)
  generalize hVK : Cert.KernelIdeal.Gen.W1 m ρ c = VK
  generalize hVR : Cert.ReferenceIdeal.Segs.Ua m' c = VR
  after_results_simp
  subst hVK hVR
  rw [a1_v12 h c, a1_v13 h c, a1_cst_2 h c]
  first | done | rfl

/-! ## After the third stretch: one weight per edge -/

theorem a3_arg0 (h : Agree m m') (c : Dev Cert.KernelIdeal.nD) :
    Cert.KernelIdeal.Gen.W3 m ρ c (Proc.devRef .tc Cert.KernelIdeal.main_arg0) = Cert.ReferenceIdeal.Segs.U1 m' c (Proc.devRef .tc Cert.ReferenceIdeal.main_arg0) := by
  show StableHlo.after Cert.KernelIdeal.Gen.hostOps0_2 (Cert.KernelIdeal.Gen.W2 m ρ c) (Proc.devRef .tc Cert.KernelIdeal.main_arg0) = StableHlo.after Cert.ReferenceIdeal.Segs.s0c (Cert.ReferenceIdeal.Segs.Ub m' c) (Proc.devRef .tc Cert.ReferenceIdeal.main_arg0)
  generalize hVK : Cert.KernelIdeal.Gen.W2 m ρ c = VK
  generalize hVR : Cert.ReferenceIdeal.Segs.Ub m' c = VR
  after_results_simp
  subst hVK hVR
  exact a2_arg0 h c

theorem a3_arg3 (h : Agree m m') (c : Dev Cert.KernelIdeal.nD) :
    Cert.KernelIdeal.Gen.W3 m ρ c (Proc.devRef .tc Cert.KernelIdeal.main_arg3) = Cert.ReferenceIdeal.Segs.U1 m' c (Proc.devRef .tc Cert.ReferenceIdeal.main_arg3) := by
  show StableHlo.after Cert.KernelIdeal.Gen.hostOps0_2 (Cert.KernelIdeal.Gen.W2 m ρ c) (Proc.devRef .tc Cert.KernelIdeal.main_arg3) = StableHlo.after Cert.ReferenceIdeal.Segs.s0c (Cert.ReferenceIdeal.Segs.Ub m' c) (Proc.devRef .tc Cert.ReferenceIdeal.main_arg3)
  generalize hVK : Cert.KernelIdeal.Gen.W2 m ρ c = VK
  generalize hVR : Cert.ReferenceIdeal.Segs.Ub m' c = VR
  after_results_simp
  subst hVK hVR
  exact a2_arg3 h c

theorem a3_arg4 (h : Agree m m') (c : Dev Cert.KernelIdeal.nD) :
    Cert.KernelIdeal.Gen.W3 m ρ c (Proc.devRef .tc Cert.KernelIdeal.main_arg4) = Cert.ReferenceIdeal.Segs.U1 m' c (Proc.devRef .tc Cert.ReferenceIdeal.main_arg4) := by
  show StableHlo.after Cert.KernelIdeal.Gen.hostOps0_2 (Cert.KernelIdeal.Gen.W2 m ρ c) (Proc.devRef .tc Cert.KernelIdeal.main_arg4) = StableHlo.after Cert.ReferenceIdeal.Segs.s0c (Cert.ReferenceIdeal.Segs.Ub m' c) (Proc.devRef .tc Cert.ReferenceIdeal.main_arg4)
  generalize hVK : Cert.KernelIdeal.Gen.W2 m ρ c = VK
  generalize hVR : Cert.ReferenceIdeal.Segs.Ub m' c = VR
  after_results_simp
  subst hVK hVR
  exact a2_arg4 h c

theorem a3_arg5 (h : Agree m m') (c : Dev Cert.KernelIdeal.nD) :
    Cert.KernelIdeal.Gen.W3 m ρ c (Proc.devRef .tc Cert.KernelIdeal.main_arg5) = Cert.ReferenceIdeal.Segs.U1 m' c (Proc.devRef .tc Cert.ReferenceIdeal.main_arg5) := by
  show StableHlo.after Cert.KernelIdeal.Gen.hostOps0_2 (Cert.KernelIdeal.Gen.W2 m ρ c) (Proc.devRef .tc Cert.KernelIdeal.main_arg5) = StableHlo.after Cert.ReferenceIdeal.Segs.s0c (Cert.ReferenceIdeal.Segs.Ub m' c) (Proc.devRef .tc Cert.ReferenceIdeal.main_arg5)
  generalize hVK : Cert.KernelIdeal.Gen.W2 m ρ c = VK
  generalize hVR : Cert.ReferenceIdeal.Segs.Ub m' c = VR
  after_results_simp
  subst hVK hVR
  exact a2_arg5 h c

theorem a3_arg6 (h : Agree m m') (c : Dev Cert.KernelIdeal.nD) :
    Cert.KernelIdeal.Gen.W3 m ρ c (Proc.devRef .tc Cert.KernelIdeal.main_arg6) = Cert.ReferenceIdeal.Segs.U1 m' c (Proc.devRef .tc Cert.ReferenceIdeal.main_arg6) := by
  show StableHlo.after Cert.KernelIdeal.Gen.hostOps0_2 (Cert.KernelIdeal.Gen.W2 m ρ c) (Proc.devRef .tc Cert.KernelIdeal.main_arg6) = StableHlo.after Cert.ReferenceIdeal.Segs.s0c (Cert.ReferenceIdeal.Segs.Ub m' c) (Proc.devRef .tc Cert.ReferenceIdeal.main_arg6)
  generalize hVK : Cert.KernelIdeal.Gen.W2 m ρ c = VK
  generalize hVR : Cert.ReferenceIdeal.Segs.Ub m' c = VR
  after_results_simp
  subst hVK hVR
  exact a2_arg6 h c

theorem a3_arg7 (h : Agree m m') (c : Dev Cert.KernelIdeal.nD) :
    Cert.KernelIdeal.Gen.W3 m ρ c (Proc.devRef .tc Cert.KernelIdeal.main_arg7) = Cert.ReferenceIdeal.Segs.U1 m' c (Proc.devRef .tc Cert.ReferenceIdeal.main_arg7) := by
  show StableHlo.after Cert.KernelIdeal.Gen.hostOps0_2 (Cert.KernelIdeal.Gen.W2 m ρ c) (Proc.devRef .tc Cert.KernelIdeal.main_arg7) = StableHlo.after Cert.ReferenceIdeal.Segs.s0c (Cert.ReferenceIdeal.Segs.Ub m' c) (Proc.devRef .tc Cert.ReferenceIdeal.main_arg7)
  generalize hVK : Cert.KernelIdeal.Gen.W2 m ρ c = VK
  generalize hVR : Cert.ReferenceIdeal.Segs.Ub m' c = VR
  after_results_simp
  subst hVK hVR
  exact a2_arg7 h c

theorem a3_arg8 (h : Agree m m') (c : Dev Cert.KernelIdeal.nD) :
    Cert.KernelIdeal.Gen.W3 m ρ c (Proc.devRef .tc Cert.KernelIdeal.main_arg8) = Cert.ReferenceIdeal.Segs.U1 m' c (Proc.devRef .tc Cert.ReferenceIdeal.main_arg8) := by
  show StableHlo.after Cert.KernelIdeal.Gen.hostOps0_2 (Cert.KernelIdeal.Gen.W2 m ρ c) (Proc.devRef .tc Cert.KernelIdeal.main_arg8) = StableHlo.after Cert.ReferenceIdeal.Segs.s0c (Cert.ReferenceIdeal.Segs.Ub m' c) (Proc.devRef .tc Cert.ReferenceIdeal.main_arg8)
  generalize hVK : Cert.KernelIdeal.Gen.W2 m ρ c = VK
  generalize hVR : Cert.ReferenceIdeal.Segs.Ub m' c = VR
  after_results_simp
  subst hVK hVR
  exact a2_arg8 h c

theorem a3_arg9 (h : Agree m m') (c : Dev Cert.KernelIdeal.nD) :
    Cert.KernelIdeal.Gen.W3 m ρ c (Proc.devRef .tc Cert.KernelIdeal.main_arg9) = Cert.ReferenceIdeal.Segs.U1 m' c (Proc.devRef .tc Cert.ReferenceIdeal.main_arg9) := by
  show StableHlo.after Cert.KernelIdeal.Gen.hostOps0_2 (Cert.KernelIdeal.Gen.W2 m ρ c) (Proc.devRef .tc Cert.KernelIdeal.main_arg9) = StableHlo.after Cert.ReferenceIdeal.Segs.s0c (Cert.ReferenceIdeal.Segs.Ub m' c) (Proc.devRef .tc Cert.ReferenceIdeal.main_arg9)
  generalize hVK : Cert.KernelIdeal.Gen.W2 m ρ c = VK
  generalize hVR : Cert.ReferenceIdeal.Segs.Ub m' c = VR
  after_results_simp
  subst hVK hVR
  exact a2_arg9 h c

theorem a3_arg10 (h : Agree m m') (c : Dev Cert.KernelIdeal.nD) :
    Cert.KernelIdeal.Gen.W3 m ρ c (Proc.devRef .tc Cert.KernelIdeal.main_arg10) = Cert.ReferenceIdeal.Segs.U1 m' c (Proc.devRef .tc Cert.ReferenceIdeal.main_arg10) := by
  show StableHlo.after Cert.KernelIdeal.Gen.hostOps0_2 (Cert.KernelIdeal.Gen.W2 m ρ c) (Proc.devRef .tc Cert.KernelIdeal.main_arg10) = StableHlo.after Cert.ReferenceIdeal.Segs.s0c (Cert.ReferenceIdeal.Segs.Ub m' c) (Proc.devRef .tc Cert.ReferenceIdeal.main_arg10)
  generalize hVK : Cert.KernelIdeal.Gen.W2 m ρ c = VK
  generalize hVR : Cert.ReferenceIdeal.Segs.Ub m' c = VR
  after_results_simp
  subst hVK hVR
  exact a2_arg10 h c

theorem a3_arg11 (h : Agree m m') (c : Dev Cert.KernelIdeal.nD) :
    Cert.KernelIdeal.Gen.W3 m ρ c (Proc.devRef .tc Cert.KernelIdeal.main_arg11) = Cert.ReferenceIdeal.Segs.U1 m' c (Proc.devRef .tc Cert.ReferenceIdeal.main_arg11) := by
  show StableHlo.after Cert.KernelIdeal.Gen.hostOps0_2 (Cert.KernelIdeal.Gen.W2 m ρ c) (Proc.devRef .tc Cert.KernelIdeal.main_arg11) = StableHlo.after Cert.ReferenceIdeal.Segs.s0c (Cert.ReferenceIdeal.Segs.Ub m' c) (Proc.devRef .tc Cert.ReferenceIdeal.main_arg11)
  generalize hVK : Cert.KernelIdeal.Gen.W2 m ρ c = VK
  generalize hVR : Cert.ReferenceIdeal.Segs.Ub m' c = VR
  after_results_simp
  subst hVK hVR
  exact a2_arg11 h c

theorem a3_arg12 (h : Agree m m') (c : Dev Cert.KernelIdeal.nD) :
    Cert.KernelIdeal.Gen.W3 m ρ c (Proc.devRef .tc Cert.KernelIdeal.main_arg12) = Cert.ReferenceIdeal.Segs.U1 m' c (Proc.devRef .tc Cert.ReferenceIdeal.main_arg12) := by
  show StableHlo.after Cert.KernelIdeal.Gen.hostOps0_2 (Cert.KernelIdeal.Gen.W2 m ρ c) (Proc.devRef .tc Cert.KernelIdeal.main_arg12) = StableHlo.after Cert.ReferenceIdeal.Segs.s0c (Cert.ReferenceIdeal.Segs.Ub m' c) (Proc.devRef .tc Cert.ReferenceIdeal.main_arg12)
  generalize hVK : Cert.KernelIdeal.Gen.W2 m ρ c = VK
  generalize hVR : Cert.ReferenceIdeal.Segs.Ub m' c = VR
  after_results_simp
  subst hVK hVR
  exact a2_arg12 h c

theorem a3_v3 (h : Agree m m') (c : Dev Cert.KernelIdeal.nD) :
    Cert.KernelIdeal.Gen.W3 m ρ c (Proc.devRef .tc Cert.KernelIdeal.main_v3) = Cert.ReferenceIdeal.Segs.U1 m' c (Proc.devRef .tc Cert.ReferenceIdeal.main_v3) := by
  show StableHlo.after Cert.KernelIdeal.Gen.hostOps0_2 (Cert.KernelIdeal.Gen.W2 m ρ c) (Proc.devRef .tc Cert.KernelIdeal.main_v3) = StableHlo.after Cert.ReferenceIdeal.Segs.s0c (Cert.ReferenceIdeal.Segs.Ub m' c) (Proc.devRef .tc Cert.ReferenceIdeal.main_v3)
  generalize hVK : Cert.KernelIdeal.Gen.W2 m ρ c = VK
  generalize hVR : Cert.ReferenceIdeal.Segs.Ub m' c = VR
  after_results_simp
  subst hVK hVR
  exact a2_v3 h c

theorem a3_v6 (h : Agree m m') (c : Dev Cert.KernelIdeal.nD) :
    Cert.KernelIdeal.Gen.W3 m ρ c (Proc.devRef .tc Cert.KernelIdeal.main_v6) = Cert.ReferenceIdeal.Segs.U1 m' c (Proc.devRef .tc Cert.ReferenceIdeal.main_v6) := by
  show StableHlo.after Cert.KernelIdeal.Gen.hostOps0_2 (Cert.KernelIdeal.Gen.W2 m ρ c) (Proc.devRef .tc Cert.KernelIdeal.main_v6) = StableHlo.after Cert.ReferenceIdeal.Segs.s0c (Cert.ReferenceIdeal.Segs.Ub m' c) (Proc.devRef .tc Cert.ReferenceIdeal.main_v6)
  generalize hVK : Cert.KernelIdeal.Gen.W2 m ρ c = VK
  generalize hVR : Cert.ReferenceIdeal.Segs.Ub m' c = VR
  after_results_simp
  subst hVK hVR
  exact a2_v6 h c

theorem a3_v29 (h : Agree m m') (c : Dev Cert.KernelIdeal.nD) :
    Cert.KernelIdeal.Gen.W3 m ρ c (Proc.devRef .tc Cert.KernelIdeal.main_v29) = Cert.ReferenceIdeal.Segs.U1 m' c (Proc.devRef .tc Cert.ReferenceIdeal.main_v29) := by
  show StableHlo.after Cert.KernelIdeal.Gen.hostOps0_2 (Cert.KernelIdeal.Gen.W2 m ρ c) (Proc.devRef .tc Cert.KernelIdeal.main_v29) = StableHlo.after Cert.ReferenceIdeal.Segs.s0c (Cert.ReferenceIdeal.Segs.Ub m' c) (Proc.devRef .tc Cert.ReferenceIdeal.main_v29)
  generalize hVK : Cert.KernelIdeal.Gen.W2 m ρ c = VK
  generalize hVR : Cert.ReferenceIdeal.Segs.Ub m' c = VR
  after_results_simp
  subst hVK hVR
  rw [a2_v3 h c, a2_v6 h c, a2_v14 h c]
  first | done | rfl

end Cert.Bridge

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.LibRowsByColumns.lean ====
/-
  The rows-times-columns product of two matrices over the extended reals as one function of its two operands,
  `rowsByColumns a b (r, c) = ∑ k, a (r, k) * b (k, c)`, and the two program spellings of it at the ideal instance: the
  host's dot_general (left operand contracted on its axis 1, right on its axis 0, no batch axis) IS that function, and a
  matrix-unit product onto the zero splat of a ROW BLOCK of the left operand is the corresponding row block of it.
  General: the extents are parameters.
-/
import proofs.«180866_j78597901517024_1_alg».proof.Proof.LibPlainDot

noncomputable section

open scoped BigOperators
open Idealize.ShloMosaic Idealize.ShloMosaic.ValueIdx

namespace Cert.Proof.RowsByColumns

open Cert.Proof.PlainDot

/-- Entry `(r, c)` of the product: the sum over the shared axis. -/
def rowsByColumns {M K N : Nat} (a : FVec Ideal ⟨2, ![M, K]⟩ .f32) (b : FVec Ideal ⟨2, ![K, N]⟩ .f32) :
    FVec Ideal ⟨2, ![M, N]⟩ .f32 :=
  fun i => ∑ k : Fin K, a (ix2 (i 0) k) * b (ix2 k (i 1))

theorem rowsByColumns_apply {M K N : Nat} (a : FVec Ideal ⟨2, ![M, K]⟩ .f32) (b : FVec Ideal ⟨2, ![K, N]⟩ .f32)
    (r : Fin M) (c : Fin N) : rowsByColumns a b (ix2 r c) = ∑ k : Fin K, a (ix2 r k) * b (ix2 k c) := rfl

/-- The host's product is that function. -/
theorem dotGeneral_eq {M K N : Nat} (wf : DotDims.WF ⟨2, ![M, K]⟩ ⟨2, ![K, N]⟩ ⟨2, ![M, N]⟩ [1] [0] [0] [1] [] [])
    (prec : Option ContractPrecision) (a : FVec Ideal ⟨2, ![M, K]⟩ .f32) (b : FVec Ideal ⟨2, ![K, N]⟩ .f32) :
    Host.dotGeneral (F := Ideal) (plainDot M K N wf) prec a b = rowsByColumns a b := by
  funext i
  obtain ⟨r, c, rfl⟩ : ∃ (r : Fin M) (c : Fin N), i = ix2 r c := ⟨i 0, i 1, eq_ix2 i⟩
  exact (dotGeneral_plain_apply wf prec a b r c).trans (rowsByColumns_apply a b r c).symm

/-- A matrix-unit product of two blocks onto the zero splat, whatever float formats the blocks were narrowed to
    (a change of format is the identity on the extended reals), is the product of the blocks. -/
theorem matmul_zero_eq {M K N : Nat} {φ₁ φ₂ : FTy} (wf : DotDims.WF ⟨2, ![M, K]⟩ ⟨2, ![K, N]⟩ ⟨2, ![M, N]⟩ [1] [0] [0] [1] [] [])
    (prec : Option ContractPrecision) (a : FVec Ideal ⟨2, ![M, K]⟩ φ₁) (b : FVec Ideal ⟨2, ![K, N]⟩ φ₂) :
    matmul (F := Ideal) (plainDot M K N wf) prec a b (constant ⟨2, ![M, N]⟩ .f32 0x00000000#32)
      = rowsByColumns (a : FVec Ideal ⟨2, ![M, K]⟩ .f32) (b : FVec Ideal ⟨2, ![K, N]⟩ .f32) := by
  funext i
  obtain ⟨r, c, rfl⟩ : ∃ (r : Fin M) (c : Fin N), i = ix2 r c := ⟨i 0, i 1, eq_ix2 i⟩
  exact (matmul_zero_plain_apply' wf prec a b r c).trans (rowsByColumns_apply (M := M) (K := K) (N := N) a b r c).symm

end Cert.Proof.RowsByColumns

end
-- ==== Proof.Region0.lean ====
/-
  Launch 0 of the idealized kernel program: what its result array holds when the launch ends.

  The launch walks ten grid points; point t reads rows 10000·t … 10000·t + 9999 of the left operand and the whole right
  operand, multiplies the two blocks on the matrix unit onto a zero accumulator (narrowing to bf16 first, which is the
  identity on the extended reals) and writes the 10000 × 64 product back as rows 10000·t … of the result. A row of a
  rows-times-columns product depends on that row of the left operand only, so what point t writes back is its block of
  the product of the WHOLE operands; the ten blocks tile the result, which therefore ends holding that product.
-/
import proofs.«180866_j78597901517024_1_alg».proof.Proof.Gen.KernelIdeal.Frame
import proofs.«180866_j78597901517024_1_alg».proof.Proof.LibRowsByColumns
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Proof.RowsByColumns Cert.Proof.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay_eq (x0 : Vec Ideal S10000x128 .f32) (x1 : Vec Ideal S128x64 .f32) :
    k0_pay1 x0 x1 = rowsByColumns (M := 10000) (K := 128) (N := 64) x0 x1 := by
  unfold k0_pay1
  exact matmul_zero_eq (M := 10000) (K := 128) (N := 64) Facts₀.dot_S10000x128_S128x64_S10000x64_1_0_0_1_n_n_wf none _ _

/-- The printed index maps, decided over the grid: the left operand's row block moves with the result's, every other
    block coordinate is 0, and the result's row block number stays below 10. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT t WRITES BACK is block t of the product of the whole operands as the launch finds them. -/
theorem flushed_eq (c : Dev nD) (t : Fin cfg0.N) :
    (dat0 V c).flushed 2 t = ((cfg0.win 2).blk t).view.read (Elt Ideal)
      (rowsByColumns (M := 100000) (K := 128) (N := 64) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq]
  obtain ⟨e0, e1, e2, e3, e4, e5⟩ := idx_facts t
  funext j
  show (∑ k : Fin 128, @HMul.hMul EReal EReal EReal _ (V c main_arg0 (((cfg0.win 0).blk t).view.emb (ix2 (j 0) k))) (V c main_arg3 (((cfg0.win 1).blk t).view.emb (ix2 k (j 1)))))
    = ∑ k : Fin 128, @HMul.hMul EReal EReal EReal _ (V c main_arg0 (ix2 ((((cfg0.win 2).blk t).view.emb j) 0) k)) (V c main_arg3 (ix2 k ((((cfg0.win 2).blk t).view.emb j) 1)))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]
  rfl

/-- An index of the result is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every index of the result is in some writing point's block: the row's block number names the point. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE RESULT ARRAY when the launch ends: the product of the operands as the launch finds them. -/
theorem final (c : Dev nD) : (dat0 V c).arrAt 2 cfg0.N
    = rowsByColumns (M := 100000) (K := 128) (N := 64) (V c main_arg0) (V c main_arg3) :=
  (dat0 V c).arrAt_eq_of_cover 2 _ (fun t _ => flushed_eq V c t) covered

end Cert.KernelIdeal.Region0

end
-- ==== Proof.Agree1.lean ====
/-
  The two idealized programs agree after graph-convolution layer 0.

  The layer is "multiply the node features by the layer's weights, gather the product's rows at the edges' sources,
  scale each by its edge's weight, add the scaled rows up at the edges' targets, add the bias row". The kernel program
  computes the product in a kernel launch, ten row blocks at a time; the reference computes it as one host product. Both
  are the rows-times-columns product of the same operands, and every other operation of the layer is the same host
  operation of the same operands in the two programs. So the buffers later stretches read hold the same arrays in the
  two programs after the layer.
-/
import proofs.«180866_j78597901517024_1_alg».proof.Proof.Agree0
import proofs.«180866_j78597901517024_1_alg».proof.Proof.Region0
import Idealize.ShloMosaic.PureOps.Ideal

set_option maxRecDepth 16384

noncomputable section

open Idealize.ShloMosaic Idealize.ShloMosaic.TcCoe Idealize.SL.Sem Idealize.ShloMosaic.StableHlo
open Cert.Proof.RowsByColumns

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

variable {m ρ m'}

/-- The reference's host product of this layer is the rows-times-columns product. -/
theorem rdot1 (a : FVec Ideal Cert.ReferenceIdeal.S100000x128 .f32) (b : FVec Ideal Cert.ReferenceIdeal.S128x64 .f32) :
    Host.dotGeneral (F := Ideal) Cert.ReferenceIdeal.dot_S100000x128_S128x64_S100000x64_1_0_0_1_n_n none a b = rowsByColumns (M := 100000) (K := 128) (N := 64) a b :=
  dotGeneral_eq (M := 100000) (K := 128) (N := 64) Cert.ReferenceIdeal.Facts₀.dot_S100000x128_S128x64_S100000x64_1_0_0_1_n_n_wf none a b

/-! ## When the launch ends: its result array is the product; the other buffers are untouched -/

theorem a4_v3 (h : Agree m m') (c : Dev Cert.KernelIdeal.nD) :
    Cert.KernelIdeal.Gen.W4 m ρ c (Proc.devRef .tc Cert.KernelIdeal.main_v3) = Cert.ReferenceIdeal.Segs.U1 m' c (Proc.devRef .tc Cert.ReferenceIdeal.main_v3) := by
  exact (Cert.KernelIdeal.Gen.W4_of_ne m ρ c Cert.KernelIdeal.main_v3 (by decide)).trans (a3_v3 h c)

theorem a4_v6 (h : Agree m m') (c : Dev Cert.KernelIdeal.nD) :
    Cert.KernelIdeal.Gen.W4 m ρ c (Proc.devRef .tc Cert.KernelIdeal.main_v6) = Cert.ReferenceIdeal.Segs.U1 m' c (Proc.devRef .tc Cert.ReferenceIdeal.main_v6) := by
  exact (Cert.KernelIdeal.Gen.W4_of_ne m ρ c Cert.KernelIdeal.main_v6 (by decide)).trans (a3_v6 h c)

theorem a4_v29 (h : Agree m m') (c : Dev Cert.KernelIdeal.nD) :
    Cert.KernelIdeal.Gen.W4 m ρ c (Proc.devRef .tc Cert.KernelIdeal.main_v29) = Cert.ReferenceIdeal.Segs.U1 m' c (Proc.devRef .tc Cert.ReferenceIdeal.main_v29) := by
  exact (Cert.KernelIdeal.Gen.W4_of_ne m ρ c Cert.KernelIdeal.main_v29 (by decide)).trans (a3_v29 h c)

theorem a4_arg4 (h : Agree m m') (c : Dev Cert.KernelIdeal.nD) :
    Cert.KernelIdeal.Gen.W4 m ρ c (Proc.devRef .tc Cert.KernelIdeal.main_arg4) = Cert.ReferenceIdeal.Segs.U1 m' c (Proc.devRef .tc Cert.ReferenceIdeal.main_arg4) := by
  exact (Cert.KernelIdeal.Gen.W4_of_ne m ρ c Cert.KernelIdeal.main_arg4 (by decide)).trans (a3_arg4 h c)

theorem a4_arg5 (h : Agree m m') (c : Dev Cert.KernelIdeal.nD) :
    Cert.KernelIdeal.Gen.W4 m ρ c (Proc.devRef .tc Cert.KernelIdeal.main_arg5) = Cert.ReferenceIdeal.Segs.U1 m' c (Proc.devRef .tc Cert.ReferenceIdeal.main_arg5) := by
  exact (Cert.KernelIdeal.Gen.W4_of_ne m ρ c Cert.KernelIdeal.main_arg5 (by decide)).trans (a3_arg5 h c)

theorem a4_arg6 (h : Agree m m') (c : Dev Cert.KernelIdeal.nD) :
    Cert.KernelIdeal.Gen.W4 m ρ c (Proc.devRef .tc Cert.KernelIdeal.main_arg6) = Cert.ReferenceIdeal.Segs.U1 m' c (Proc.devRef .tc Cert.ReferenceIdeal.main_arg6) := by
  exact (Cert.KernelIdeal.Gen.W4_of_ne m ρ c Cert.KernelIdeal.main_arg6 (by decide)).trans (a3_arg6 h c)

theorem a4_arg7 (h : Agree m m') (c : Dev Cert.KernelIdeal.nD) :
    Cert.KernelIdeal.Gen.W4 m ρ c (Proc.devRef .tc Cert.KernelIdeal.main_arg7) = Cert.ReferenceIdeal.Segs.U1 m' c (Proc.devRef .tc Cert.ReferenceIdeal.main_arg7) := by
  exact (Cert.KernelIdeal.Gen.W4_of_ne m ρ c Cert.KernelIdeal.main_arg7 (by decide)).trans (a3_arg7 h c)

theorem a4_arg8 (h : Agree m m') (c : Dev Cert.KernelIdeal.nD) :
    Cert.KernelIdeal.Gen.W4 m ρ c (Proc.devRef .tc Cert.KernelIdeal.main_arg8) = Cert.ReferenceIdeal.Segs.U1 m' c (Proc.devRef .tc Cert.ReferenceIdeal.main_arg8) := by
  exact (Cert.KernelIdeal.Gen.W4_of_ne m ρ c Cert.KernelIdeal.main_arg8 (by decide)).trans (a3_arg8 h c)

theorem a4_arg9 (h : Agree m m') (c : Dev Cert.KernelIdeal.nD) :
    Cert.KernelIdeal.Gen.W4 m ρ c (Proc.devRef .tc Cert.KernelIdeal.main_arg9) = Cert.ReferenceIdeal.Segs.U1 m' c (Proc.devRef .tc Cert.ReferenceIdeal.main_arg9) := by
  exact (Cert.KernelIdeal.Gen.W4_of_ne m ρ c Cert.KernelIdeal.main_arg9 (by decide)).trans (a3_arg9 h c)

theorem a4_arg10 (h : Agree m m') (c : Dev Cert.KernelIdeal.nD) :
    Cert.KernelIdeal.Gen.W4 m ρ c (Proc.devRef .tc Cert.KernelIdeal.main_arg10) = Cert.ReferenceIdeal.Segs.U1 m' c (Proc.devRef .tc Cert.ReferenceIdeal.main_arg10) := by
  exact (Cert.KernelIdeal.Gen.W4_of_ne m ρ c Cert.KernelIdeal.main_arg10 (by decide)).trans (a3_arg10 h c)

theorem a4_arg11 (h : Agree m m') (c : Dev Cert.KernelIdeal.nD) :
    Cert.KernelIdeal.Gen.W4 m ρ c (Proc.devRef .tc Cert.KernelIdeal.main_arg11) = Cert.ReferenceIdeal.Segs.U1 m' c (Proc.devRef .tc Cert.ReferenceIdeal.main_arg11) := by
  exact (Cert.KernelIdeal.Gen.W4_of_ne m ρ c Cert.KernelIdeal.main_arg11 (by decide)).trans (a3_arg11 h c)

theorem a4_arg12 (h : Agree m m') (c : Dev Cert.KernelIdeal.nD) :
    Cert.KernelIdeal.Gen.W4 m ρ c (Proc.devRef .tc Cert.KernelIdeal.main_arg12) = Cert.ReferenceIdeal.Segs.U1 m' c (Proc.devRef .tc Cert.ReferenceIdeal.main_arg12) := by
  exact (Cert.KernelIdeal.Gen.W4_of_ne m ρ c Cert.KernelIdeal.main_arg12 (by decide)).trans (a3_arg12 h c)

theorem a4_v30 (h : Agree m m') (c : Dev Cert.KernelIdeal.nD) :
    Cert.KernelIdeal.Gen.W4 m ρ c (Proc.devRef .tc Cert.KernelIdeal.main_v30) = rowsByColumns (M := 100000) (K := 128) (N := 64) (Cert.ReferenceIdeal.Segs.U1 m' c (Proc.devRef .tc Cert.ReferenceIdeal.main_arg0)) (Cert.ReferenceIdeal.Segs.U1 m' c (Proc.devRef .tc Cert.ReferenceIdeal.main_arg3)) := by
  refine ((Cert.KernelIdeal.Gen.W4_arr m ρ c 2).trans ((Cert.KernelIdeal.Region0.final (Cert.KernelIdeal.Gen.V3 m ρ) c).trans ?_))
  show rowsByColumns (M := 100000) (K := 128) (N := 64) (Cert.KernelIdeal.Gen.W3 m ρ c (Proc.devRef .tc Cert.KernelIdeal.main_arg0)) (Cert.KernelIdeal.Gen.W3 m ρ c (Proc.devRef .tc Cert.KernelIdeal.main_arg3)) = _
  rw [a3_arg0 h c, a3_arg3 h c]

/-! ## After the layer's host stretch -/

theorem a5_v3 (h : Agree m m') (c : Dev Cert.KernelIdeal.nD) :
    Cert.KernelIdeal.Gen.W5 m ρ c (Proc.devRef .tc Cert.KernelIdeal.main_v3) = Cert.ReferenceIdeal.Segs.U2 m' c (Proc.devRef .tc Cert.ReferenceIdeal.main_v3) := by
  show StableHlo.after Cert.KernelIdeal.Gen.hostOps1 (Cert.KernelIdeal.Gen.W4 m ρ c) (Proc.devRef .tc Cert.KernelIdeal.main_v3) = StableHlo.after Cert.ReferenceIdeal.Segs.s1 (Cert.ReferenceIdeal.Segs.U1 m' c) (Proc.devRef .tc Cert.ReferenceIdeal.main_v3)
  generalize hVK : Cert.KernelIdeal.Gen.W4 m ρ c = VK
  generalize hVR : Cert.ReferenceIdeal.Segs.U1 m' c = VR
  after_results_simp
  subst hVK hVR
  exact a4_v3 h c

theorem a5_v6 (h : Agree m m') (c : Dev Cert.KernelIdeal.nD) :
    Cert.KernelIdeal.Gen.W5 m ρ c (Proc.devRef .tc Cert.KernelIdeal.main_v6) = Cert.ReferenceIdeal.Segs.U2 m' c (Proc.devRef .tc Cert.ReferenceIdeal.main_v6) := by
  show StableHlo.after Cert.KernelIdeal.Gen.hostOps1 (Cert.KernelIdeal.Gen.W4 m ρ c) (Proc.devRef .tc Cert.KernelIdeal.main_v6) = StableHlo.after Cert.ReferenceIdeal.Segs.s1 (Cert.ReferenceIdeal.Segs.U1 m' c) (Proc.devRef .tc Cert.ReferenceIdeal.main_v6)
  generalize hVK : Cert.KernelIdeal.Gen.W4 m ρ c = VK
  generalize hVR : Cert.ReferenceIdeal.Segs.U1 m' c = VR
  after_results_simp
  subst hVK hVR
  exact a4_v6 h c

theorem a5_v29 (h : Agree m m') (c : Dev Cert.KernelIdeal.nD) :
    Cert.KernelIdeal.Gen.W5 m ρ c (Proc.devRef .tc Cert.KernelIdeal.main_v29) = Cert.ReferenceIdeal.Segs.U2 m' c (Proc.devRef .tc Cert.ReferenceIdeal.main_v29) := by
  show StableHlo.after Cert.KernelIdeal.Gen.hostOps1 (Cert.KernelIdeal.Gen.W4 m ρ c) (Proc.devRef .tc Cert.KernelIdeal.main_v29) = StableHlo.after Cert.ReferenceIdeal.Segs.s1 (Cert.ReferenceIdeal.Segs.U1 m' c) (Proc.devRef .tc Cert.ReferenceIdeal.main_v29)
  generalize hVK : Cert.KernelIdeal.Gen.W4 m ρ c = VK
  generalize hVR : Cert.ReferenceIdeal.Segs.U1 m' c = VR
  after_results_simp
  subst hVK hVR
  exact a4_v29 h c

theorem a5_arg5 (h : Agree m m') (c : Dev Cert.KernelIdeal.nD) :
    Cert.KernelIdeal.Gen.W5 m ρ c (Proc.devRef .tc Cert.KernelIdeal.main_arg5) = Cert.ReferenceIdeal.Segs.U2 m' c (Proc.devRef .tc Cert.ReferenceIdeal.main_arg5) := by
  show StableHlo.after Cert.KernelIdeal.Gen.hostOps1 (Cert.KernelIdeal.Gen.W4 m ρ c) (Proc.devRef .tc Cert.KernelIdeal.main_arg5) = StableHlo.after Cert.ReferenceIdeal.Segs.s1 (Cert.ReferenceIdeal.Segs.U1 m' c) (Proc.devRef .tc Cert.ReferenceIdeal.main_arg5)
  generalize hVK : Cert.KernelIdeal.Gen.W4 m ρ c = VK
  generalize hVR : Cert.ReferenceIdeal.Segs.U1 m' c = VR
  after_results_simp
  subst hVK hVR
  exact a4_arg5 h c

theorem a5_arg6 (h : Agree m m') (c : Dev Cert.KernelIdeal.nD) :
    Cert.KernelIdeal.Gen.W5 m ρ c (Proc.devRef .tc Cert.KernelIdeal.main_arg6) = Cert.ReferenceIdeal.Segs.U2 m' c (Proc.devRef .tc Cert.ReferenceIdeal.main_arg6) := by
  show StableHlo.after Cert.KernelIdeal.Gen.hostOps1 (Cert.KernelIdeal.Gen.W4 m ρ c) (Proc.devRef .tc Cert.KernelIdeal.main_arg6) = StableHlo.after Cert.ReferenceIdeal.Segs.s1 (Cert.ReferenceIdeal.Segs.U1 m' c) (Proc.devRef .tc Cert.ReferenceIdeal.main_arg6)
  generalize hVK : Cert.KernelIdeal.Gen.W4 m ρ c = VK
  generalize hVR : Cert.ReferenceIdeal.Segs.U1 m' c = VR
  after_results_simp
  subst hVK hVR
  exact a4_arg6 h c

theorem a5_arg7 (h : Agree m m') (c : Dev Cert.KernelIdeal.nD) :
    Cert.KernelIdeal.Gen.W5 m ρ c (Proc.devRef .tc Cert.KernelIdeal.main_arg7) = Cert.ReferenceIdeal.Segs.U2 m' c (Proc.devRef .tc Cert.ReferenceIdeal.main_arg7) := by
  show StableHlo.after Cert.KernelIdeal.Gen.hostOps1 (Cert.KernelIdeal.Gen.W4 m ρ c) (Proc.devRef .tc Cert.KernelIdeal.main_arg7) = StableHlo.after Cert.ReferenceIdeal.Segs.s1 (Cert.ReferenceIdeal.Segs.U1 m' c) (Proc.devRef .tc Cert.ReferenceIdeal.main_arg7)
  generalize hVK : Cert.KernelIdeal.Gen.W4 m ρ c = VK
  generalize hVR : Cert.ReferenceIdeal.Segs.U1 m' c = VR
  after_results_simp
  subst hVK hVR
  exact a4_arg7 h c

theorem a5_arg8 (h : Agree m m') (c : Dev Cert.KernelIdeal.nD) :
    Cert.KernelIdeal.Gen.W5 m ρ c (Proc.devRef .tc Cert.KernelIdeal.main_arg8) = Cert.ReferenceIdeal.Segs.U2 m' c (Proc.devRef .tc Cert.ReferenceIdeal.main_arg8) := by
  show StableHlo.after Cert.KernelIdeal.Gen.hostOps1 (Cert.KernelIdeal.Gen.W4 m ρ c) (Proc.devRef .tc Cert.KernelIdeal.main_arg8) = StableHlo.after Cert.ReferenceIdeal.Segs.s1 (Cert.ReferenceIdeal.Segs.U1 m' c) (Proc.devRef .tc Cert.ReferenceIdeal.main_arg8)
  generalize hVK : Cert.KernelIdeal.Gen.W4 m ρ c = VK
  generalize hVR : Cert.ReferenceIdeal.Segs.U1 m' c = VR
  after_results_simp
  subst hVK hVR
  exact a4_arg8 h c

theorem a5_arg9 (h : Agree m m') (c : Dev Cert.KernelIdeal.nD) :
    Cert.KernelIdeal.Gen.W5 m ρ c (Proc.devRef .tc Cert.KernelIdeal.main_arg9) = Cert.ReferenceIdeal.Segs.U2 m' c (Proc.devRef .tc Cert.ReferenceIdeal.main_arg9) := by
  show StableHlo.after Cert.KernelIdeal.Gen.hostOps1 (Cert.KernelIdeal.Gen.W4 m ρ c) (Proc.devRef .tc Cert.KernelIdeal.main_arg9) = StableHlo.after Cert.ReferenceIdeal.Segs.s1 (Cert.ReferenceIdeal.Segs.U1 m' c) (Proc.devRef .tc Cert.ReferenceIdeal.main_arg9)
  generalize hVK : Cert.KernelIdeal.Gen.W4 m ρ c = VK
  generalize hVR : Cert.ReferenceIdeal.Segs.U1 m' c = VR
  after_results_simp
  subst hVK hVR
  exact a4_arg9 h c

theorem a5_arg10 (h : Agree m m') (c : Dev Cert.KernelIdeal.nD) :
    Cert.KernelIdeal.Gen.W5 m ρ c (Proc.devRef .tc Cert.KernelIdeal.main_arg10) = Cert.ReferenceIdeal.Segs.U2 m' c (Proc.devRef .tc Cert.ReferenceIdeal.main_arg10) := by
  show StableHlo.after Cert.KernelIdeal.Gen.hostOps1 (Cert.KernelIdeal.Gen.W4 m ρ c) (Proc.devRef .tc Cert.KernelIdeal.main_arg10) = StableHlo.after Cert.ReferenceIdeal.Segs.s1 (Cert.ReferenceIdeal.Segs.U1 m' c) (Proc.devRef .tc Cert.ReferenceIdeal.main_arg10)
  generalize hVK : Cert.KernelIdeal.Gen.W4 m ρ c = VK
  generalize hVR : Cert.ReferenceIdeal.Segs.U1 m' c = VR
  after_results_simp
  subst hVK hVR
  exact a4_arg10 h c

theorem a5_arg11 (h : Agree m m') (c : Dev Cert.KernelIdeal.nD) :
    Cert.KernelIdeal.Gen.W5 m ρ c (Proc.devRef .tc Cert.KernelIdeal.main_arg11) = Cert.ReferenceIdeal.Segs.U2 m' c (Proc.devRef .tc Cert.ReferenceIdeal.main_arg11) := by
  show StableHlo.after Cert.KernelIdeal.Gen.hostOps1 (Cert.KernelIdeal.Gen.W4 m ρ c) (Proc.devRef .tc Cert.KernelIdeal.main_arg11) = StableHlo.after Cert.ReferenceIdeal.Segs.s1 (Cert.ReferenceIdeal.Segs.U1 m' c) (Proc.devRef .tc Cert.ReferenceIdeal.main_arg11)
  generalize hVK : Cert.KernelIdeal.Gen.W4 m ρ c = VK
  generalize hVR : Cert.ReferenceIdeal.Segs.U1 m' c = VR
  after_results_simp
  subst hVK hVR
  exact a4_arg11 h c

theorem a5_arg12 (h : Agree m m') (c : Dev Cert.KernelIdeal.nD) :
    Cert.KernelIdeal.Gen.W5 m ρ c (Proc.devRef .tc Cert.KernelIdeal.main_arg12) = Cert.ReferenceIdeal.Segs.U2 m' c (Proc.devRef .tc Cert.ReferenceIdeal.main_arg12) := by
  show StableHlo.after Cert.KernelIdeal.Gen.hostOps1 (Cert.KernelIdeal.Gen.W4 m ρ c) (Proc.devRef .tc Cert.KernelIdeal.main_arg12) = StableHlo.after Cert.ReferenceIdeal.Segs.s1 (Cert.ReferenceIdeal.Segs.U1 m' c) (Proc.devRef .tc Cert.ReferenceIdeal.main_arg12)
  generalize hVK : Cert.KernelIdeal.Gen.W4 m ρ c = VK
  generalize hVR : Cert.ReferenceIdeal.Segs.U1 m' c = VR
  after_results_simp
  subst hVK hVR
  exact a4_arg12 h c

/-- The layer's result. -/
theorem a5_v46 (h : Agree m m') (c : Dev Cert.KernelIdeal.nD) :
    Cert.KernelIdeal.Gen.W5 m ρ c (Proc.devRef .tc Cert.KernelIdeal.main_v46) = Cert.ReferenceIdeal.Segs.U2 m' c (Proc.devRef .tc Cert.ReferenceIdeal.main_v46) := by
  show StableHlo.after Cert.KernelIdeal.Gen.hostOps1 (Cert.KernelIdeal.Gen.W4 m ρ c) (Proc.devRef .tc Cert.KernelIdeal.main_v46) = StableHlo.after Cert.ReferenceIdeal.Segs.s1 (Cert.ReferenceIdeal.Segs.U1 m' c) (Proc.devRef .tc Cert.ReferenceIdeal.main_v46)
  generalize hVK : Cert.KernelIdeal.Gen.W4 m ρ c = VK
  generalize hVR : Cert.ReferenceIdeal.Segs.U1 m' c = VR
  after_results_simp
  subst hVK hVR
  rw [rdot1, a4_v30 h c, a4_v3 h c, a4_v6 h c, a4_v29 h c, a4_arg4 h c]
  first | done | rfl

end Cert.Bridge

end
-- ==== Proof.Region1.lean ====
/-
  Launch 1 of the idealized kernel program: what its result array holds when the launch ends.

  The launch walks ten grid points; point t reads rows 10000·t … 10000·t + 9999 of the left operand and the whole right
  operand, multiplies the two blocks on the matrix unit onto a zero accumulator (narrowing to bf16 first, which is the
  identity on the extended reals) and writes the 10000 × 64 product back as rows 10000·t … of the result. A row of a
  rows-times-columns product depends on that row of the left operand only, so what point t writes back is its block of
  the product of the WHOLE operands; the ten blocks tile the result, which therefore ends holding that product.
-/
import proofs.«180866_j78597901517024_1_alg».proof.Proof.Gen.KernelIdeal.Frame
import proofs.«180866_j78597901517024_1_alg».proof.Proof.LibRowsByColumns
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Proof.RowsByColumns Cert.Proof.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay_eq (x0 : Vec Ideal S10000x64 .f32) (x1 : Vec Ideal S64x64 .f32) :
    k1_pay1 x0 x1 = rowsByColumns (M := 10000) (K := 64) (N := 64) x0 x1 := by
  unfold k1_pay1
  dsimp only
  rw [shapeCast_self]
  exact matmul_zero_eq (M := 10000) (K := 64) (N := 64) Facts₀.dot_S10000x64_S64x64_S10000x64_1_0_0_1_n_n_wf none _ _

/-- The printed index maps, decided over the grid: the left operand's row block moves with the result's, every other
    block coordinate is 0, and the result's row block number stays below 10. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block of the result is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- WHAT POINT t WRITES BACK is block t of the product of the whole operands as the launch finds them. -/
theorem flushed_eq (c : Dev nD) (t : Fin cfg1.N) :
    (dat1 V c).flushed 2 t = ((cfg1.win 2).blk t).view.read (Elt Ideal)
      (rowsByColumns (M := 100000) (K := 64) (N := 64) (V c main_v46) (V c main_arg5)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  rw [pay_eq]
  obtain ⟨e0, e1, e2, e3, e4, e5⟩ := idx_facts t
  funext j
  show (∑ k : Fin 64, @HMul.hMul EReal EReal EReal _ (V c main_v46 (((cfg1.win 0).blk t).view.emb (ix2 (j 0) k))) (V c main_arg5 (((cfg1.win 1).blk t).view.emb (ix2 k (j 1)))))
    = ∑ k : Fin 64, @HMul.hMul EReal EReal EReal _ (V c main_v46 (ix2 ((((cfg1.win 2).blk t).view.emb j) 0) k)) (V c main_arg5 (ix2 k ((((cfg1.win 2).blk t).view.emb j) 1)))
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  rw [h0, h1]
  rfl

/-- An index of the result is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Every index of the result is in some writing point's block: the row's block number names the point. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE RESULT ARRAY when the launch ends: the product of the operands as the launch finds them. -/
theorem final (c : Dev nD) : (dat1 V c).arrAt 2 cfg1.N
    = rowsByColumns (M := 100000) (K := 64) (N := 64) (V c main_v46) (V c main_arg5) :=
  (dat1 V c).arrAt_eq_of_cover 2 _ (fun t _ => flushed_eq V c t) covered

end Cert.KernelIdeal.Region1

end
-- ==== Proof.Agree2.lean ====
/-
  The two idealized programs agree after graph-convolution layer 1.

  The layer is "multiply the node features by the layer's weights, gather the product's rows at the edges' sources,
  scale each by its edge's weight, add the scaled rows up at the edges' targets, add the bias row". The kernel program
  computes the product in a kernel launch, ten row blocks at a time; the reference computes it as one host product. Both
  are the rows-times-columns product of the same operands, and every other operation of the layer is the same host
  operation of the same operands in the two programs. So the buffers later stretches read hold the same arrays in the
  two programs after the layer.
-/
import proofs.«180866_j78597901517024_1_alg».proof.Proof.Agree1
import proofs.«180866_j78597901517024_1_alg».proof.Proof.Region1
import Idealize.ShloMosaic.PureOps.Ideal

set_option maxRecDepth 16384

noncomputable section

open Idealize.ShloMosaic Idealize.ShloMosaic.TcCoe Idealize.SL.Sem Idealize.ShloMosaic.StableHlo
open Cert.Proof.RowsByColumns

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

variable {m ρ m'}

/-- The reference's host product of this layer is the rows-times-columns product. -/
theorem rdot2 (a : FVec Ideal Cert.ReferenceIdeal.S100000x64 .f32) (b : FVec Ideal Cert.ReferenceIdeal.S64x64 .f32) :
    Host.dotGeneral (F := Ideal) Cert.ReferenceIdeal.dot_S100000x64_S64x64_S100000x64_1_0_0_1_n_n none a b = rowsByColumns (M := 100000) (K := 64) (N := 64) a b :=
  dotGeneral_eq (M := 100000) (K := 64) (N := 64) Cert.ReferenceIdeal.Facts₀.dot_S100000x64_S64x64_S100000x64_1_0_0_1_n_n_wf none a b

/-! ## When the launch ends: its result array is the product; the other buffers are untouched -/

theorem a6_v3 (h : Agree m m') (c : Dev Cert.KernelIdeal.nD) :
    Cert.KernelIdeal.Gen.W6 m ρ c (Proc.devRef .tc Cert.KernelIdeal.main_v3) = Cert.ReferenceIdeal.Segs.U2 m' c (Proc.devRef .tc Cert.ReferenceIdeal.main_v3) := by
  exact (Cert.KernelIdeal.Gen.W6_of_ne m ρ c Cert.KernelIdeal.main_v3 (by decide)).trans (a5_v3 h c)

theorem a6_v6 (h : Agree m m') (c : Dev Cert.KernelIdeal.nD) :
    Cert.KernelIdeal.Gen.W6 m ρ c (Proc.devRef .tc Cert.KernelIdeal.main_v6) = Cert.ReferenceIdeal.Segs.U2 m' c (Proc.devRef .tc Cert.ReferenceIdeal.main_v6) := by
  exact (Cert.KernelIdeal.Gen.W6_of_ne m ρ c Cert.KernelIdeal.main_v6 (by decide)).trans (a5_v6 h c)

theorem a6_v29 (h : Agree m m') (c : Dev Cert.KernelIdeal.nD) :
    Cert.KernelIdeal.Gen.W6 m ρ c (Proc.devRef .tc Cert.KernelIdeal.main_v29) = Cert.ReferenceIdeal.Segs.U2 m' c (Proc.devRef .tc Cert.ReferenceIdeal.main_v29) := by
  exact (Cert.KernelIdeal.Gen.W6_of_ne m ρ c Cert.KernelIdeal.main_v29 (by decide)).trans (a5_v29 h c)

theorem a6_arg6 (h : Agree m m') (c : Dev Cert.KernelIdeal.nD) :
    Cert.KernelIdeal.Gen.W6 m ρ c (Proc.devRef .tc Cert.KernelIdeal.main_arg6) = Cert.ReferenceIdeal.Segs.U2 m' c (Proc.devRef .tc Cert.ReferenceIdeal.main_arg6) := by
  exact (Cert.KernelIdeal.Gen.W6_of_ne m ρ c Cert.KernelIdeal.main_arg6 (by decide)).trans (a5_arg6 h c)

theorem a6_arg7 (h : Agree m m') (c : Dev Cert.KernelIdeal.nD) :
    Cert.KernelIdeal.Gen.W6 m ρ c (Proc.devRef .tc Cert.KernelIdeal.main_arg7) = Cert.ReferenceIdeal.Segs.U2 m' c (Proc.devRef .tc Cert.ReferenceIdeal.main_arg7) := by
  exact (Cert.KernelIdeal.Gen.W6_of_ne m ρ c Cert.KernelIdeal.main_arg7 (by decide)).trans (a5_arg7 h c)

theorem a6_arg8 (h : Agree m m') (c : Dev Cert.KernelIdeal.nD) :
    Cert.KernelIdeal.Gen.W6 m ρ c (Proc.devRef .tc Cert.KernelIdeal.main_arg8) = Cert.ReferenceIdeal.Segs.U2 m' c (Proc.devRef .tc Cert.ReferenceIdeal.main_arg8) := by
  exact (Cert.KernelIdeal.Gen.W6_of_ne m ρ c Cert.KernelIdeal.main_arg8 (by decide)).trans (a5_arg8 h c)

theorem a6_arg9 (h : Agree m m') (c : Dev Cert.KernelIdeal.nD) :
    Cert.KernelIdeal.Gen.W6 m ρ c (Proc.devRef .tc Cert.KernelIdeal.main_arg9) = Cert.ReferenceIdeal.Segs.U2 m' c (Proc.devRef .tc Cert.ReferenceIdeal.main_arg9) := by
  exact (Cert.KernelIdeal.Gen.W6_of_ne m ρ c Cert.KernelIdeal.main_arg9 (by decide)).trans (a5_arg9 h c)

theorem a6_arg10 (h : Agree m m') (c : Dev Cert.KernelIdeal.nD) :
    Cert.KernelIdeal.Gen.W6 m ρ c (Proc.devRef .tc Cert.KernelIdeal.main_arg10) = Cert.ReferenceIdeal.Segs.U2 m' c (Proc.devRef .tc Cert.ReferenceIdeal.main_arg10) := by
  exact (Cert.KernelIdeal.Gen.W6_of_ne m ρ c Cert.KernelIdeal.main_arg10 (by decide)).trans (a5_arg10 h c)

theorem a6_arg11 (h : Agree m m') (c : Dev Cert.KernelIdeal.nD) :
    Cert.KernelIdeal.Gen.W6 m ρ c (Proc.devRef .tc Cert.KernelIdeal.main_arg11) = Cert.ReferenceIdeal.Segs.U2 m' c (Proc.devRef .tc Cert.ReferenceIdeal.main_arg11) := by
  exact (Cert.KernelIdeal.Gen.W6_of_ne m ρ c Cert.KernelIdeal.main_arg11 (by decide)).trans (a5_arg11 h c)

theorem a6_arg12 (h : Agree m m') (c : Dev Cert.KernelIdeal.nD) :
    Cert.KernelIdeal.Gen.W6 m ρ c (Proc.devRef .tc Cert.KernelIdeal.main_arg12) = Cert.ReferenceIdeal.Segs.U2 m' c (Proc.devRef .tc Cert.ReferenceIdeal.main_arg12) := by
  exact (Cert.KernelIdeal.Gen.W6_of_ne m ρ c Cert.KernelIdeal.main_arg12 (by decide)).trans (a5_arg12 h c)

theorem a6_v47 (h : Agree m m') (c : Dev Cert.KernelIdeal.nD) :
    Cert.KernelIdeal.Gen.W6 m ρ c (Proc.devRef .tc Cert.KernelIdeal.main_v47) = rowsByColumns (M := 100000) (K := 64) (N := 64) (Cert.ReferenceIdeal.Segs.U2 m' c (Proc.devRef .tc Cert.ReferenceIdeal.main_v46)) (Cert.ReferenceIdeal.Segs.U2 m' c (Proc.devRef .tc Cert.ReferenceIdeal.main_arg5)) := by
  refine ((Cert.KernelIdeal.Gen.W6_arr m ρ c 2).trans ((Cert.KernelIdeal.Region1.final (Cert.KernelIdeal.Gen.V5 m ρ) c).trans ?_))
  show rowsByColumns (M := 100000) (K := 64) (N := 64) (Cert.KernelIdeal.Gen.W5 m ρ c (Proc.devRef .tc Cert.KernelIdeal.main_v46)) (Cert.KernelIdeal.Gen.W5 m ρ c (Proc.devRef .tc Cert.KernelIdeal.main_arg5)) = _
  rw [a5_v46 h c, a5_arg5 h c]

/-! ## After the layer's host stretch -/

theorem a7_v3 (h : Agree m m') (c : Dev Cert.KernelIdeal.nD) :
    Cert.KernelIdeal.Gen.W7 m ρ c (Proc.devRef .tc Cert.KernelIdeal.main_v3) = Cert.ReferenceIdeal.Segs.U3 m' c (Proc.devRef .tc Cert.ReferenceIdeal.main_v3) := by
  show StableHlo.after Cert.KernelIdeal.Gen.hostOps2 (Cert.KernelIdeal.Gen.W6 m ρ c) (Proc.devRef .tc Cert.KernelIdeal.main_v3) = StableHlo.after Cert.ReferenceIdeal.Segs.s2 (Cert.ReferenceIdeal.Segs.U2 m' c) (Proc.devRef .tc Cert.ReferenceIdeal.main_v3)
  generalize hVK : Cert.KernelIdeal.Gen.W6 m ρ c = VK
  generalize hVR : Cert.ReferenceIdeal.Segs.U2 m' c = VR
  after_results_simp
  subst hVK hVR
  exact a6_v3 h c

theorem a7_v6 (h : Agree m m') (c : Dev Cert.KernelIdeal.nD) :
    Cert.KernelIdeal.Gen.W7 m ρ c (Proc.devRef .tc Cert.KernelIdeal.main_v6) = Cert.ReferenceIdeal.Segs.U3 m' c (Proc.devRef .tc Cert.ReferenceIdeal.main_v6) := by
  show StableHlo.after Cert.KernelIdeal.Gen.hostOps2 (Cert.KernelIdeal.Gen.W6 m ρ c) (Proc.devRef .tc Cert.KernelIdeal.main_v6) = StableHlo.after Cert.ReferenceIdeal.Segs.s2 (Cert.ReferenceIdeal.Segs.U2 m' c) (Proc.devRef .tc Cert.ReferenceIdeal.main_v6)
  generalize hVK : Cert.KernelIdeal.Gen.W6 m ρ c = VK
  generalize hVR : Cert.ReferenceIdeal.Segs.U2 m' c = VR
  after_results_simp
  subst hVK hVR
  exact a6_v6 h c

theorem a7_v29 (h : Agree m m') (c : Dev Cert.KernelIdeal.nD) :
    Cert.KernelIdeal.Gen.W7 m ρ c (Proc.devRef .tc Cert.KernelIdeal.main_v29) = Cert.ReferenceIdeal.Segs.U3 m' c (Proc.devRef .tc Cert.ReferenceIdeal.main_v29) := by
  show StableHlo.after Cert.KernelIdeal.Gen.hostOps2 (Cert.KernelIdeal.Gen.W6 m ρ c) (Proc.devRef .tc Cert.KernelIdeal.main_v29) = StableHlo.after Cert.ReferenceIdeal.Segs.s2 (Cert.ReferenceIdeal.Segs.U2 m' c) (Proc.devRef .tc Cert.ReferenceIdeal.main_v29)
  generalize hVK : Cert.KernelIdeal.Gen.W6 m ρ c = VK
  generalize hVR : Cert.ReferenceIdeal.Segs.U2 m' c = VR
  after_results_simp
  subst hVK hVR
  exact a6_v29 h c

theorem a7_arg7 (h : Agree m m') (c : Dev Cert.KernelIdeal.nD) :
    Cert.KernelIdeal.Gen.W7 m ρ c (Proc.devRef .tc Cert.KernelIdeal.main_arg7) = Cert.ReferenceIdeal.Segs.U3 m' c (Proc.devRef .tc Cert.ReferenceIdeal.main_arg7) := by
  show StableHlo.after Cert.KernelIdeal.Gen.hostOps2 (Cert.KernelIdeal.Gen.W6 m ρ c) (Proc.devRef .tc Cert.KernelIdeal.main_arg7) = StableHlo.after Cert.ReferenceIdeal.Segs.s2 (Cert.ReferenceIdeal.Segs.U2 m' c) (Proc.devRef .tc Cert.ReferenceIdeal.main_arg7)
  generalize hVK : Cert.KernelIdeal.Gen.W6 m ρ c = VK
  generalize hVR : Cert.ReferenceIdeal.Segs.U2 m' c = VR
  after_results_simp
  subst hVK hVR
  exact a6_arg7 h c

theorem a7_arg8 (h : Agree m m') (c : Dev Cert.KernelIdeal.nD) :
    Cert.KernelIdeal.Gen.W7 m ρ c (Proc.devRef .tc Cert.KernelIdeal.main_arg8) = Cert.ReferenceIdeal.Segs.U3 m' c (Proc.devRef .tc Cert.ReferenceIdeal.main_arg8) := by
  show StableHlo.after Cert.KernelIdeal.Gen.hostOps2 (Cert.KernelIdeal.Gen.W6 m ρ c) (Proc.devRef .tc Cert.KernelIdeal.main_arg8) = StableHlo.after Cert.ReferenceIdeal.Segs.s2 (Cert.ReferenceIdeal.Segs.U2 m' c) (Proc.devRef .tc Cert.ReferenceIdeal.main_arg8)
  generalize hVK : Cert.KernelIdeal.Gen.W6 m ρ c = VK
  generalize hVR : Cert.ReferenceIdeal.Segs.U2 m' c = VR
  after_results_simp
  subst hVK hVR
  exact a6_arg8 h c

theorem a7_arg9 (h : Agree m m') (c : Dev Cert.KernelIdeal.nD) :
    Cert.KernelIdeal.Gen.W7 m ρ c (Proc.devRef .tc Cert.KernelIdeal.main_arg9) = Cert.ReferenceIdeal.Segs.U3 m' c (Proc.devRef .tc Cert.ReferenceIdeal.main_arg9) := by
  show StableHlo.after Cert.KernelIdeal.Gen.hostOps2 (Cert.KernelIdeal.Gen.W6 m ρ c) (Proc.devRef .tc Cert.KernelIdeal.main_arg9) = StableHlo.after Cert.ReferenceIdeal.Segs.s2 (Cert.ReferenceIdeal.Segs.U2 m' c) (Proc.devRef .tc Cert.ReferenceIdeal.main_arg9)
  generalize hVK : Cert.KernelIdeal.Gen.W6 m ρ c = VK
  generalize hVR : Cert.ReferenceIdeal.Segs.U2 m' c = VR
  after_results_simp
  subst hVK hVR
  exact a6_arg9 h c

theorem a7_arg10 (h : Agree m m') (c : Dev Cert.KernelIdeal.nD) :
    Cert.KernelIdeal.Gen.W7 m ρ c (Proc.devRef .tc Cert.KernelIdeal.main_arg10) = Cert.ReferenceIdeal.Segs.U3 m' c (Proc.devRef .tc Cert.ReferenceIdeal.main_arg10) := by
  show StableHlo.after Cert.KernelIdeal.Gen.hostOps2 (Cert.KernelIdeal.Gen.W6 m ρ c) (Proc.devRef .tc Cert.KernelIdeal.main_arg10) = StableHlo.after Cert.ReferenceIdeal.Segs.s2 (Cert.ReferenceIdeal.Segs.U2 m' c) (Proc.devRef .tc Cert.ReferenceIdeal.main_arg10)
  generalize hVK : Cert.KernelIdeal.Gen.W6 m ρ c = VK
  generalize hVR : Cert.ReferenceIdeal.Segs.U2 m' c = VR
  after_results_simp
  subst hVK hVR
  exact a6_arg10 h c

theorem a7_arg11 (h : Agree m m') (c : Dev Cert.KernelIdeal.nD) :
    Cert.KernelIdeal.Gen.W7 m ρ c (Proc.devRef .tc Cert.KernelIdeal.main_arg11) = Cert.ReferenceIdeal.Segs.U3 m' c (Proc.devRef .tc Cert.ReferenceIdeal.main_arg11) := by
  show StableHlo.after Cert.KernelIdeal.Gen.hostOps2 (Cert.KernelIdeal.Gen.W6 m ρ c) (Proc.devRef .tc Cert.KernelIdeal.main_arg11) = StableHlo.after Cert.ReferenceIdeal.Segs.s2 (Cert.ReferenceIdeal.Segs.U2 m' c) (Proc.devRef .tc Cert.ReferenceIdeal.main_arg11)
  generalize hVK : Cert.KernelIdeal.Gen.W6 m ρ c = VK
  generalize hVR : Cert.ReferenceIdeal.Segs.U2 m' c = VR
  after_results_simp
  subst hVK hVR
  exact a6_arg11 h c

theorem a7_arg12 (h : Agree m m') (c : Dev Cert.KernelIdeal.nD) :
    Cert.KernelIdeal.Gen.W7 m ρ c (Proc.devRef .tc Cert.KernelIdeal.main_arg12) = Cert.ReferenceIdeal.Segs.U3 m' c (Proc.devRef .tc Cert.ReferenceIdeal.main_arg12) := by
  show StableHlo.after Cert.KernelIdeal.Gen.hostOps2 (Cert.KernelIdeal.Gen.W6 m ρ c) (Proc.devRef .tc Cert.KernelIdeal.main_arg12) = StableHlo.after Cert.ReferenceIdeal.Segs.s2 (Cert.ReferenceIdeal.Segs.U2 m' c) (Proc.devRef .tc Cert.ReferenceIdeal.main_arg12)
  generalize hVK : Cert.KernelIdeal.Gen.W6 m ρ c = VK
  generalize hVR : Cert.ReferenceIdeal.Segs.U2 m' c = VR
  after_results_simp
  subst hVK hVR
  exact a6_arg12 h c

/-- The layer's result. -/
theorem a7_v63 (h : Agree m m') (c : Dev Cert.KernelIdeal.nD) :
    Cert.KernelIdeal.Gen.W7 m ρ c (Proc.devRef .tc Cert.KernelIdeal.main_v63) = Cert.ReferenceIdeal.Segs.U3 m' c (Proc.devRef .tc Cert.ReferenceIdeal.main_v63) := by
  show StableHlo.after Cert.KernelIdeal.Gen.hostOps2 (Cert.KernelIdeal.Gen.W6 m ρ c) (Proc.devRef .tc Cert.KernelIdeal.main_v63) = StableHlo.after Cert.ReferenceIdeal.Segs.s2 (Cert.ReferenceIdeal.Segs.U2 m' c) (Proc.devRef .tc Cert.ReferenceIdeal.main_v63)
  generalize hVK : Cert.KernelIdeal.Gen.W6 m ρ c = VK
  generalize hVR : Cert.ReferenceIdeal.Segs.U2 m' c = VR
  after_results_simp
  subst hVK hVR
  rw [rdot2, a6_v47 h c, a6_v3 h c, a6_v6 h c, a6_v29 h c, a6_arg6 h c]
  first | done | rfl

end Cert.Bridge

end
-- ==== Proof.Region2.lean ====
/-
  Launch 2 of the idealized kernel program: what its result array holds when the launch ends.

  The launch walks ten grid points; point t reads rows 10000·t … 10000·t + 9999 of the left operand and the whole right
  operand, multiplies the two blocks on the matrix unit onto a zero accumulator (narrowing to bf16 first, which is the
  identity on the extended reals) and writes the 10000 × 64 product back as rows 10000·t … of the result. A row of a
  rows-times-columns product depends on that row of the left operand only, so what point t writes back is its block of
  the product of the WHOLE operands; the ten blocks tile the result, which therefore ends holding that product.
-/
import proofs.«180866_j78597901517024_1_alg».proof.Proof.Gen.KernelIdeal.Frame
import proofs.«180866_j78597901517024_1_alg».proof.Proof.LibRowsByColumns
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Proof.RowsByColumns Cert.Proof.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay_eq (x0 : Vec Ideal S10000x64 .f32) (x1 : Vec Ideal S64x64 .f32) :
    k2_pay1 x0 x1 = rowsByColumns (M := 10000) (K := 64) (N := 64) x0 x1 := by
  unfold k2_pay1
  dsimp only
  rw [shapeCast_self]
  exact matmul_zero_eq (M := 10000) (K := 64) (N := 64) Facts₀.dot_S10000x64_S64x64_S10000x64_1_0_0_1_n_n_wf none _ _

/-- The printed index maps, decided over the grid: the left operand's row block moves with the result's, every other
    block coordinate is 0, and the result's row block number stays below 10. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- WHAT POINT t WRITES BACK is block t of the product of the whole operands as the launch finds them. -/
theorem flushed_eq (c : Dev nD) (t : Fin cfg2.N) :
    (dat2 V c).flushed 2 t = ((cfg2.win 2).blk t).view.read (Elt Ideal)
      (rowsByColumns (M := 100000) (K := 64) (N := 64) (V c main_v63) (V c main_arg7)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  rw [pay_eq]
  obtain ⟨e0, e1, e2, e3, e4, e5⟩ := idx_facts t
  funext j
  show (∑ k : Fin 64, @HMul.hMul EReal EReal EReal _ (V c main_v63 (((cfg2.win 0).blk t).view.emb (ix2 (j 0) k))) (V c main_arg7 (((cfg2.win 1).blk t).view.emb (ix2 k (j 1)))))
    = ∑ k : Fin 64, @HMul.hMul EReal EReal EReal _ (V c main_v63 (ix2 ((((cfg2.win 2).blk t).view.emb j) 0) k)) (V c main_arg7 (ix2 k ((((cfg2.win 2).blk t).view.emb j) 1)))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  rw [h0, h1]
  rfl

/-- An index of the result is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v64).slice (win2_2.rect t)).set ↔ _
  rw [View.set_slice_whole, Rect.mem_set_unit]
  exact Iff.rfl

/-- Every index of the result is in some writing point's block: the row's block number names the point. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE RESULT ARRAY when the launch ends: the product of the operands as the launch finds them. -/
theorem final (c : Dev nD) : (dat2 V c).arrAt 2 cfg2.N
    = rowsByColumns (M := 100000) (K := 64) (N := 64) (V c main_v63) (V c main_arg7) :=
  (dat2 V c).arrAt_eq_of_cover 2 _ (fun t _ => flushed_eq V c t) covered

end Cert.KernelIdeal.Region2

end
-- ==== Proof.Agree3.lean ====
/-
  The two idealized programs agree after graph-convolution layer 2.

  The layer is "multiply the node features by the layer's weights, gather the product's rows at the edges' sources,
  scale each by its edge's weight, add the scaled rows up at the edges' targets, add the bias row". The kernel program
  computes the product in a kernel launch, ten row blocks at a time; the reference computes it as one host product. Both
  are the rows-times-columns product of the same operands, and every other operation of the layer is the same host
  operation of the same operands in the two programs. So the buffers later stretches read hold the same arrays in the
  two programs after the layer.
-/
import proofs.«180866_j78597901517024_1_alg».proof.Proof.Agree2
import proofs.«180866_j78597901517024_1_alg».proof.Proof.Region2
import Idealize.ShloMosaic.PureOps.Ideal

set_option maxRecDepth 16384

noncomputable section

open Idealize.ShloMosaic Idealize.ShloMosaic.TcCoe Idealize.SL.Sem Idealize.ShloMosaic.StableHlo
open Cert.Proof.RowsByColumns

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

variable {m ρ m'}

/-- The reference's host product of this layer is the rows-times-columns product. -/
theorem rdot3 (a : FVec Ideal Cert.ReferenceIdeal.S100000x64 .f32) (b : FVec Ideal Cert.ReferenceIdeal.S64x64 .f32) :
    Host.dotGeneral (F := Ideal) Cert.ReferenceIdeal.dot_S100000x64_S64x64_S100000x64_1_0_0_1_n_n none a b = rowsByColumns (M := 100000) (K := 64) (N := 64) a b :=
  dotGeneral_eq (M := 100000) (K := 64) (N := 64) Cert.ReferenceIdeal.Facts₀.dot_S100000x64_S64x64_S100000x64_1_0_0_1_n_n_wf none a b

/-! ## When the launch ends: its result array is the product; the other buffers are untouched -/

theorem a8_v3 (h : Agree m m') (c : Dev Cert.KernelIdeal.nD) :
    Cert.KernelIdeal.Gen.W8 m ρ c (Proc.devRef .tc Cert.KernelIdeal.main_v3) = Cert.ReferenceIdeal.Segs.U3 m' c (Proc.devRef .tc Cert.ReferenceIdeal.main_v3) := by
  exact (Cert.KernelIdeal.Gen.W8_of_ne m ρ c Cert.KernelIdeal.main_v3 (by decide)).trans (a7_v3 h c)

theorem a8_v6 (h : Agree m m') (c : Dev Cert.KernelIdeal.nD) :
    Cert.KernelIdeal.Gen.W8 m ρ c (Proc.devRef .tc Cert.KernelIdeal.main_v6) = Cert.ReferenceIdeal.Segs.U3 m' c (Proc.devRef .tc Cert.ReferenceIdeal.main_v6) := by
  exact (Cert.KernelIdeal.Gen.W8_of_ne m ρ c Cert.KernelIdeal.main_v6 (by decide)).trans (a7_v6 h c)

theorem a8_v29 (h : Agree m m') (c : Dev Cert.KernelIdeal.nD) :
    Cert.KernelIdeal.Gen.W8 m ρ c (Proc.devRef .tc Cert.KernelIdeal.main_v29) = Cert.ReferenceIdeal.Segs.U3 m' c (Proc.devRef .tc Cert.ReferenceIdeal.main_v29) := by
  exact (Cert.KernelIdeal.Gen.W8_of_ne m ρ c Cert.KernelIdeal.main_v29 (by decide)).trans (a7_v29 h c)

theorem a8_arg8 (h : Agree m m') (c : Dev Cert.KernelIdeal.nD) :
    Cert.KernelIdeal.Gen.W8 m ρ c (Proc.devRef .tc Cert.KernelIdeal.main_arg8) = Cert.ReferenceIdeal.Segs.U3 m' c (Proc.devRef .tc Cert.ReferenceIdeal.main_arg8) := by
  exact (Cert.KernelIdeal.Gen.W8_of_ne m ρ c Cert.KernelIdeal.main_arg8 (by decide)).trans (a7_arg8 h c)

theorem a8_arg9 (h : Agree m m') (c : Dev Cert.KernelIdeal.nD) :
    Cert.KernelIdeal.Gen.W8 m ρ c (Proc.devRef .tc Cert.KernelIdeal.main_arg9) = Cert.ReferenceIdeal.Segs.U3 m' c (Proc.devRef .tc Cert.ReferenceIdeal.main_arg9) := by
  exact (Cert.KernelIdeal.Gen.W8_of_ne m ρ c Cert.KernelIdeal.main_arg9 (by decide)).trans (a7_arg9 h c)

theorem a8_arg10 (h : Agree m m') (c : Dev Cert.KernelIdeal.nD) :
    Cert.KernelIdeal.Gen.W8 m ρ c (Proc.devRef .tc Cert.KernelIdeal.main_arg10) = Cert.ReferenceIdeal.Segs.U3 m' c (Proc.devRef .tc Cert.ReferenceIdeal.main_arg10) := by
  exact (Cert.KernelIdeal.Gen.W8_of_ne m ρ c Cert.KernelIdeal.main_arg10 (by decide)).trans (a7_arg10 h c)

theorem a8_arg11 (h : Agree m m') (c : Dev Cert.KernelIdeal.nD) :
    Cert.KernelIdeal.Gen.W8 m ρ c (Proc.devRef .tc Cert.KernelIdeal.main_arg11) = Cert.ReferenceIdeal.Segs.U3 m' c (Proc.devRef .tc Cert.ReferenceIdeal.main_arg11) := by
  exact (Cert.KernelIdeal.Gen.W8_of_ne m ρ c Cert.KernelIdeal.main_arg11 (by decide)).trans (a7_arg11 h c)

theorem a8_arg12 (h : Agree m m') (c : Dev Cert.KernelIdeal.nD) :
    Cert.KernelIdeal.Gen.W8 m ρ c (Proc.devRef .tc Cert.KernelIdeal.main_arg12) = Cert.ReferenceIdeal.Segs.U3 m' c (Proc.devRef .tc Cert.ReferenceIdeal.main_arg12) := by
  exact (Cert.KernelIdeal.Gen.W8_of_ne m ρ c Cert.KernelIdeal.main_arg12 (by decide)).trans (a7_arg12 h c)

theorem a8_v64 (h : Agree m m') (c : Dev Cert.KernelIdeal.nD) :
    Cert.KernelIdeal.Gen.W8 m ρ c (Proc.devRef .tc Cert.KernelIdeal.main_v64) = rowsByColumns (M := 100000) (K := 64) (N := 64) (Cert.ReferenceIdeal.Segs.U3 m' c (Proc.devRef .tc Cert.ReferenceIdeal.main_v63)) (Cert.ReferenceIdeal.Segs.U3 m' c (Proc.devRef .tc Cert.ReferenceIdeal.main_arg7)) := by
  refine ((Cert.KernelIdeal.Gen.W8_arr m ρ c 2).trans ((Cert.KernelIdeal.Region2.final (Cert.KernelIdeal.Gen.V7 m ρ) c).trans ?_))
  show rowsByColumns (M := 100000) (K := 64) (N := 64) (Cert.KernelIdeal.Gen.W7 m ρ c (Proc.devRef .tc Cert.KernelIdeal.main_v63)) (Cert.KernelIdeal.Gen.W7 m ρ c (Proc.devRef .tc Cert.KernelIdeal.main_arg7)) = _
  rw [a7_v63 h c, a7_arg7 h c]

/-! ## After the layer's host stretch -/

theorem a9_v3 (h : Agree m m') (c : Dev Cert.KernelIdeal.nD) :
    Cert.KernelIdeal.Gen.W9 m ρ c (Proc.devRef .tc Cert.KernelIdeal.main_v3) = Cert.ReferenceIdeal.Segs.U4 m' c (Proc.devRef .tc Cert.ReferenceIdeal.main_v3) := by
  show StableHlo.after Cert.KernelIdeal.Gen.hostOps3 (Cert.KernelIdeal.Gen.W8 m ρ c) (Proc.devRef .tc Cert.KernelIdeal.main_v3) = StableHlo.after Cert.ReferenceIdeal.Segs.s3 (Cert.ReferenceIdeal.Segs.U3 m' c) (Proc.devRef .tc Cert.ReferenceIdeal.main_v3)
  generalize hVK : Cert.KernelIdeal.Gen.W8 m ρ c = VK
  generalize hVR : Cert.ReferenceIdeal.Segs.U3 m' c = VR
  after_results_simp
  subst hVK hVR
  exact a8_v3 h c

theorem a9_v6 (h : Agree m m') (c : Dev Cert.KernelIdeal.nD) :
    Cert.KernelIdeal.Gen.W9 m ρ c (Proc.devRef .tc Cert.KernelIdeal.main_v6) = Cert.ReferenceIdeal.Segs.U4 m' c (Proc.devRef .tc Cert.ReferenceIdeal.main_v6) := by
  show StableHlo.after Cert.KernelIdeal.Gen.hostOps3 (Cert.KernelIdeal.Gen.W8 m ρ c) (Proc.devRef .tc Cert.KernelIdeal.main_v6) = StableHlo.after Cert.ReferenceIdeal.Segs.s3 (Cert.ReferenceIdeal.Segs.U3 m' c) (Proc.devRef .tc Cert.ReferenceIdeal.main_v6)
  generalize hVK : Cert.KernelIdeal.Gen.W8 m ρ c = VK
  generalize hVR : Cert.ReferenceIdeal.Segs.U3 m' c = VR
  after_results_simp
  subst hVK hVR
  exact a8_v6 h c

theorem a9_v29 (h : Agree m m') (c : Dev Cert.KernelIdeal.nD) :
    Cert.KernelIdeal.Gen.W9 m ρ c (Proc.devRef .tc Cert.KernelIdeal.main_v29) = Cert.ReferenceIdeal.Segs.U4 m' c (Proc.devRef .tc Cert.ReferenceIdeal.main_v29) := by
  show StableHlo.after Cert.KernelIdeal.Gen.hostOps3 (Cert.KernelIdeal.Gen.W8 m ρ c) (Proc.devRef .tc Cert.KernelIdeal.main_v29) = StableHlo.after Cert.ReferenceIdeal.Segs.s3 (Cert.ReferenceIdeal.Segs.U3 m' c) (Proc.devRef .tc Cert.ReferenceIdeal.main_v29)
  generalize hVK : Cert.KernelIdeal.Gen.W8 m ρ c = VK
  generalize hVR : Cert.ReferenceIdeal.Segs.U3 m' c = VR
  after_results_simp
  subst hVK hVR
  exact a8_v29 h c

theorem a9_arg9 (h : Agree m m') (c : Dev Cert.KernelIdeal.nD) :
    Cert.KernelIdeal.Gen.W9 m ρ c (Proc.devRef .tc Cert.KernelIdeal.main_arg9) = Cert.ReferenceIdeal.Segs.U4 m' c (Proc.devRef .tc Cert.ReferenceIdeal.main_arg9) := by
  show StableHlo.after Cert.KernelIdeal.Gen.hostOps3 (Cert.KernelIdeal.Gen.W8 m ρ c) (Proc.devRef .tc Cert.KernelIdeal.main_arg9) = StableHlo.after Cert.ReferenceIdeal.Segs.s3 (Cert.ReferenceIdeal.Segs.U3 m' c) (Proc.devRef .tc Cert.ReferenceIdeal.main_arg9)
  generalize hVK : Cert.KernelIdeal.Gen.W8 m ρ c = VK
  generalize hVR : Cert.ReferenceIdeal.Segs.U3 m' c = VR
  after_results_simp
  subst hVK hVR
  exact a8_arg9 h c

theorem a9_arg10 (h : Agree m m') (c : Dev Cert.KernelIdeal.nD) :
    Cert.KernelIdeal.Gen.W9 m ρ c (Proc.devRef .tc Cert.KernelIdeal.main_arg10) = Cert.ReferenceIdeal.Segs.U4 m' c (Proc.devRef .tc Cert.ReferenceIdeal.main_arg10) := by
  show StableHlo.after Cert.KernelIdeal.Gen.hostOps3 (Cert.KernelIdeal.Gen.W8 m ρ c) (Proc.devRef .tc Cert.KernelIdeal.main_arg10) = StableHlo.after Cert.ReferenceIdeal.Segs.s3 (Cert.ReferenceIdeal.Segs.U3 m' c) (Proc.devRef .tc Cert.ReferenceIdeal.main_arg10)
  generalize hVK : Cert.KernelIdeal.Gen.W8 m ρ c = VK
  generalize hVR : Cert.ReferenceIdeal.Segs.U3 m' c = VR
  after_results_simp
  subst hVK hVR
  exact a8_arg10 h c

theorem a9_arg11 (h : Agree m m') (c : Dev Cert.KernelIdeal.nD) :
    Cert.KernelIdeal.Gen.W9 m ρ c (Proc.devRef .tc Cert.KernelIdeal.main_arg11) = Cert.ReferenceIdeal.Segs.U4 m' c (Proc.devRef .tc Cert.ReferenceIdeal.main_arg11) := by
  show StableHlo.after Cert.KernelIdeal.Gen.hostOps3 (Cert.KernelIdeal.Gen.W8 m ρ c) (Proc.devRef .tc Cert.KernelIdeal.main_arg11) = StableHlo.after Cert.ReferenceIdeal.Segs.s3 (Cert.ReferenceIdeal.Segs.U3 m' c) (Proc.devRef .tc Cert.ReferenceIdeal.main_arg11)
  generalize hVK : Cert.KernelIdeal.Gen.W8 m ρ c = VK
  generalize hVR : Cert.ReferenceIdeal.Segs.U3 m' c = VR
  after_results_simp
  subst hVK hVR
  exact a8_arg11 h c

theorem a9_arg12 (h : Agree m m') (c : Dev Cert.KernelIdeal.nD) :
    Cert.KernelIdeal.Gen.W9 m ρ c (Proc.devRef .tc Cert.KernelIdeal.main_arg12) = Cert.ReferenceIdeal.Segs.U4 m' c (Proc.devRef .tc Cert.ReferenceIdeal.main_arg12) := by
  show StableHlo.after Cert.KernelIdeal.Gen.hostOps3 (Cert.KernelIdeal.Gen.W8 m ρ c) (Proc.devRef .tc Cert.KernelIdeal.main_arg12) = StableHlo.after Cert.ReferenceIdeal.Segs.s3 (Cert.ReferenceIdeal.Segs.U3 m' c) (Proc.devRef .tc Cert.ReferenceIdeal.main_arg12)
  generalize hVK : Cert.KernelIdeal.Gen.W8 m ρ c = VK
  generalize hVR : Cert.ReferenceIdeal.Segs.U3 m' c = VR
  after_results_simp
  subst hVK hVR
  exact a8_arg12 h c

/-- The layer's result. -/
theorem a9_v80 (h : Agree m m') (c : Dev Cert.KernelIdeal.nD) :
    Cert.KernelIdeal.Gen.W9 m ρ c (Proc.devRef .tc Cert.KernelIdeal.main_v80) = Cert.ReferenceIdeal.Segs.U4 m' c (Proc.devRef .tc Cert.ReferenceIdeal.main_v80) := by
  show StableHlo.after Cert.KernelIdeal.Gen.hostOps3 (Cert.KernelIdeal.Gen.W8 m ρ c) (Proc.devRef .tc Cert.KernelIdeal.main_v80) = StableHlo.after Cert.ReferenceIdeal.Segs.s3 (Cert.ReferenceIdeal.Segs.U3 m' c) (Proc.devRef .tc Cert.ReferenceIdeal.main_v80)
  generalize hVK : Cert.KernelIdeal.Gen.W8 m ρ c = VK
  generalize hVR : Cert.ReferenceIdeal.Segs.U3 m' c = VR
  after_results_simp
  subst hVK hVR
  rw [rdot3, a8_v64 h c, a8_v3 h c, a8_v6 h c, a8_v29 h c, a8_arg8 h c]
  first | done | rfl

end Cert.Bridge

end
-- ==== Proof.Region3.lean ====
/-
  Launch 3 of the idealized kernel program: what its result array holds when the launch ends.

  The launch walks ten grid points; point t reads rows 10000·t … 10000·t + 9999 of the left operand and the whole right
  operand, multiplies the two blocks on the matrix unit onto a zero accumulator (narrowing to bf16 first, which is the
  identity on the extended reals) and writes the 10000 × 64 product back as rows 10000·t … of the result. A row of a
  rows-times-columns product depends on that row of the left operand only, so what point t writes back is its block of
  the product of the WHOLE operands; the ten blocks tile the result, which therefore ends holding that product.
-/
import proofs.«180866_j78597901517024_1_alg».proof.Proof.Gen.KernelIdeal.Frame
import proofs.«180866_j78597901517024_1_alg».proof.Proof.LibRowsByColumns
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Proof.RowsByColumns Cert.Proof.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay_eq (x0 : Vec Ideal S10000x64 .f32) (x1 : Vec Ideal S64x64 .f32) :
    k3_pay1 x0 x1 = rowsByColumns (M := 10000) (K := 64) (N := 64) x0 x1 := by
  unfold k3_pay1
  dsimp only
  rw [shapeCast_self]
  exact matmul_zero_eq (M := 10000) (K := 64) (N := 64) Facts₀.dot_S10000x64_S64x64_S10000x64_1_0_0_1_n_n_wf none _ _

/-- The printed index maps, decided over the grid: the left operand's row block moves with the result's, every other
    block coordinate is 0, and the result's row block number stays below 10. -/
theorem idx_facts : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block of the result is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- WHAT POINT t WRITES BACK is block t of the product of the whole operands as the launch finds them. -/
theorem flushed_eq (c : Dev nD) (t : Fin cfg3.N) :
    (dat3 V c).flushed 2 t = ((cfg3.win 2).blk t).view.read (Elt Ideal)
      (rowsByColumns (M := 100000) (K := 64) (N := 64) (V c main_v80) (V c main_arg9)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  rw [pay_eq]
  obtain ⟨e0, e1, e2, e3, e4, e5⟩ := idx_facts t
  funext j
  show (∑ k : Fin 64, @HMul.hMul EReal EReal EReal _ (V c main_v80 (((cfg3.win 0).blk t).view.emb (ix2 (j 0) k))) (V c main_arg9 (((cfg3.win 1).blk t).view.emb (ix2 k (j 1)))))
    = ∑ k : Fin 64, @HMul.hMul EReal EReal EReal _ (V c main_v80 (ix2 ((((cfg3.win 2).blk t).view.emb j) 0) k)) (V c main_arg9 (ix2 k ((((cfg3.win 2).blk t).view.emb j) 1)))
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  rw [h0, h1]
  rfl

/-- An index of the result is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v81).slice (win3_2.rect t)).set ↔ _
  rw [View.set_slice_whole, Rect.mem_set_unit]
  exact Iff.rfl

/-- Every index of the result is in some writing point's block: the row's block number names the point. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE RESULT ARRAY when the launch ends: the product of the operands as the launch finds them. -/
theorem final (c : Dev nD) : (dat3 V c).arrAt 2 cfg3.N
    = rowsByColumns (M := 100000) (K := 64) (N := 64) (V c main_v80) (V c main_arg9) :=
  (dat3 V c).arrAt_eq_of_cover 2 _ (fun t _ => flushed_eq V c t) covered

end Cert.KernelIdeal.Region3

end
-- ==== Proof.Agree4.lean ====
/-
  The two idealized programs agree after graph-convolution layer 3.

  The layer is "multiply the node features by the layer's weights, gather the product's rows at the edges' sources,
  scale each by its edge's weight, add the scaled rows up at the edges' targets, add the bias row". The kernel program
  computes the product in a kernel launch, ten row blocks at a time; the reference computes it as one host product. Both
  are the rows-times-columns product of the same operands, and every other operation of the layer is the same host
  operation of the same operands in the two programs. So the buffers later stretches read hold the same arrays in the
  two programs after the layer.
-/
import proofs.«180866_j78597901517024_1_alg».proof.Proof.Agree3
import proofs.«180866_j78597901517024_1_alg».proof.Proof.Region3
import Idealize.ShloMosaic.PureOps.Ideal

set_option maxRecDepth 16384

noncomputable section

open Idealize.ShloMosaic Idealize.ShloMosaic.TcCoe Idealize.SL.Sem Idealize.ShloMosaic.StableHlo
open Cert.Proof.RowsByColumns

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

variable {m ρ m'}

/-- The reference's host product of this layer is the rows-times-columns product. -/
theorem rdot4 (a : FVec Ideal Cert.ReferenceIdeal.S100000x64 .f32) (b : FVec Ideal Cert.ReferenceIdeal.S64x64 .f32) :
    Host.dotGeneral (F := Ideal) Cert.ReferenceIdeal.dot_S100000x64_S64x64_S100000x64_1_0_0_1_n_n none a b = rowsByColumns (M := 100000) (K := 64) (N := 64) a b :=
  dotGeneral_eq (M := 100000) (K := 64) (N := 64) Cert.ReferenceIdeal.Facts₀.dot_S100000x64_S64x64_S100000x64_1_0_0_1_n_n_wf none a b

/-! ## When the launch ends: its result array is the product; the other buffers are untouched -/

theorem a10_v3 (h : Agree m m') (c : Dev Cert.KernelIdeal.nD) :
    Cert.KernelIdeal.Gen.W10 m ρ c (Proc.devRef .tc Cert.KernelIdeal.main_v3) = Cert.ReferenceIdeal.Segs.U4 m' c (Proc.devRef .tc Cert.ReferenceIdeal.main_v3) := by
  exact (Cert.KernelIdeal.Gen.W10_of_ne m ρ c Cert.KernelIdeal.main_v3 (by decide)).trans (a9_v3 h c)

theorem a10_v6 (h : Agree m m') (c : Dev Cert.KernelIdeal.nD) :
    Cert.KernelIdeal.Gen.W10 m ρ c (Proc.devRef .tc Cert.KernelIdeal.main_v6) = Cert.ReferenceIdeal.Segs.U4 m' c (Proc.devRef .tc Cert.ReferenceIdeal.main_v6) := by
  exact (Cert.KernelIdeal.Gen.W10_of_ne m ρ c Cert.KernelIdeal.main_v6 (by decide)).trans (a9_v6 h c)

theorem a10_v29 (h : Agree m m') (c : Dev Cert.KernelIdeal.nD) :
    Cert.KernelIdeal.Gen.W10 m ρ c (Proc.devRef .tc Cert.KernelIdeal.main_v29) = Cert.ReferenceIdeal.Segs.U4 m' c (Proc.devRef .tc Cert.ReferenceIdeal.main_v29) := by
  exact (Cert.KernelIdeal.Gen.W10_of_ne m ρ c Cert.KernelIdeal.main_v29 (by decide)).trans (a9_v29 h c)

theorem a10_arg10 (h : Agree m m') (c : Dev Cert.KernelIdeal.nD) :
    Cert.KernelIdeal.Gen.W10 m ρ c (Proc.devRef .tc Cert.KernelIdeal.main_arg10) = Cert.ReferenceIdeal.Segs.U4 m' c (Proc.devRef .tc Cert.ReferenceIdeal.main_arg10) := by
  exact (Cert.KernelIdeal.Gen.W10_of_ne m ρ c Cert.KernelIdeal.main_arg10 (by decide)).trans (a9_arg10 h c)

theorem a10_arg11 (h : Agree m m') (c : Dev Cert.KernelIdeal.nD) :
    Cert.KernelIdeal.Gen.W10 m ρ c (Proc.devRef .tc Cert.KernelIdeal.main_arg11) = Cert.ReferenceIdeal.Segs.U4 m' c (Proc.devRef .tc Cert.ReferenceIdeal.main_arg11) := by
  exact (Cert.KernelIdeal.Gen.W10_of_ne m ρ c Cert.KernelIdeal.main_arg11 (by decide)).trans (a9_arg11 h c)

theorem a10_arg12 (h : Agree m m') (c : Dev Cert.KernelIdeal.nD) :
    Cert.KernelIdeal.Gen.W10 m ρ c (Proc.devRef .tc Cert.KernelIdeal.main_arg12) = Cert.ReferenceIdeal.Segs.U4 m' c (Proc.devRef .tc Cert.ReferenceIdeal.main_arg12) := by
  exact (Cert.KernelIdeal.Gen.W10_of_ne m ρ c Cert.KernelIdeal.main_arg12 (by decide)).trans (a9_arg12 h c)

theorem a10_v81 (h : Agree m m') (c : Dev Cert.KernelIdeal.nD) :
    Cert.KernelIdeal.Gen.W10 m ρ c (Proc.devRef .tc Cert.KernelIdeal.main_v81) = rowsByColumns (M := 100000) (K := 64) (N := 64) (Cert.ReferenceIdeal.Segs.U4 m' c (Proc.devRef .tc Cert.ReferenceIdeal.main_v80)) (Cert.ReferenceIdeal.Segs.U4 m' c (Proc.devRef .tc Cert.ReferenceIdeal.main_arg9)) := by
  refine ((Cert.KernelIdeal.Gen.W10_arr m ρ c 2).trans ((Cert.KernelIdeal.Region3.final (Cert.KernelIdeal.Gen.V9 m ρ) c).trans ?_))
  show rowsByColumns (M := 100000) (K := 64) (N := 64) (Cert.KernelIdeal.Gen.W9 m ρ c (Proc.devRef .tc Cert.KernelIdeal.main_v80)) (Cert.KernelIdeal.Gen.W9 m ρ c (Proc.devRef .tc Cert.KernelIdeal.main_arg9)) = _
  rw [a9_v80 h c, a9_arg9 h c]

/-! ## After the layer's host stretch -/

theorem a11_arg11 (h : Agree m m') (c : Dev Cert.KernelIdeal.nD) :
    Cert.KernelIdeal.Gen.W11 m ρ c (Proc.devRef .tc Cert.KernelIdeal.main_arg11) = Cert.ReferenceIdeal.Segs.U5 m' c (Proc.devRef .tc Cert.ReferenceIdeal.main_arg11) := by
  show StableHlo.after Cert.KernelIdeal.Gen.hostOps4 (Cert.KernelIdeal.Gen.W10 m ρ c) (Proc.devRef .tc Cert.KernelIdeal.main_arg11) = StableHlo.after Cert.ReferenceIdeal.Segs.s4 (Cert.ReferenceIdeal.Segs.U4 m' c) (Proc.devRef .tc Cert.ReferenceIdeal.main_arg11)
  generalize hVK : Cert.KernelIdeal.Gen.W10 m ρ c = VK
  generalize hVR : Cert.ReferenceIdeal.Segs.U4 m' c = VR
  after_results_simp
  subst hVK hVR
  exact a10_arg11 h c

theorem a11_arg12 (h : Agree m m') (c : Dev Cert.KernelIdeal.nD) :
    Cert.KernelIdeal.Gen.W11 m ρ c (Proc.devRef .tc Cert.KernelIdeal.main_arg12) = Cert.ReferenceIdeal.Segs.U5 m' c (Proc.devRef .tc Cert.ReferenceIdeal.main_arg12) := by
  show StableHlo.after Cert.KernelIdeal.Gen.hostOps4 (Cert.KernelIdeal.Gen.W10 m ρ c) (Proc.devRef .tc Cert.KernelIdeal.main_arg12) = StableHlo.after Cert.ReferenceIdeal.Segs.s4 (Cert.ReferenceIdeal.Segs.U4 m' c) (Proc.devRef .tc Cert.ReferenceIdeal.main_arg12)
  generalize hVK : Cert.KernelIdeal.Gen.W10 m ρ c = VK
  generalize hVR : Cert.ReferenceIdeal.Segs.U4 m' c = VR
  after_results_simp
  subst hVK hVR
  exact a10_arg12 h c

/-- The layer's result. -/
theorem a11_v97 (h : Agree m m') (c : Dev Cert.KernelIdeal.nD) :
    Cert.KernelIdeal.Gen.W11 m ρ c (Proc.devRef .tc Cert.KernelIdeal.main_v97) = Cert.ReferenceIdeal.Segs.U5 m' c (Proc.devRef .tc Cert.ReferenceIdeal.main_v97) := by
  show StableHlo.after Cert.KernelIdeal.Gen.hostOps4 (Cert.KernelIdeal.Gen.W10 m ρ c) (Proc.devRef .tc Cert.KernelIdeal.main_v97) = StableHlo.after Cert.ReferenceIdeal.Segs.s4 (Cert.ReferenceIdeal.Segs.U4 m' c) (Proc.devRef .tc Cert.ReferenceIdeal.main_v97)
  generalize hVK : Cert.KernelIdeal.Gen.W10 m ρ c = VK
  generalize hVR : Cert.ReferenceIdeal.Segs.U4 m' c = VR
  after_results_simp
  subst hVK hVR
  rw [rdot4, a10_v81 h c, a10_v3 h c, a10_v6 h c, a10_v29 h c, a10_arg10 h c]
  first | done | rfl

end Cert.Bridge

end
-- ==== Proof.Region4.lean ====
/-
  Launch 4 of the idealized kernel program: what its result array holds when the launch ends.

  The launch walks ten grid points; point t reads rows 10000·t … 10000·t + 9999 of the left operand and the whole right
  operand, multiplies the two blocks on the matrix unit onto a zero accumulator (narrowing to bf16 first, which is the
  identity on the extended reals), adds the one entry of the 1 × 1 bias block to every entry, and writes the 10000 × 1
  column back as rows 10000·t … of the result. A row of a rows-times-columns product depends on that row of the left operand only, so what point t writes
  back is its block of "the product of the WHOLE operands, plus the bias entry"; the ten blocks tile the result, which
  therefore ends holding that.
-/
import proofs.«180866_j78597901517024_1_alg».proof.Proof.Gen.KernelIdeal.Frame
import proofs.«180866_j78597901517024_1_alg».proof.Proof.LibRowsByColumns
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.Proof.RowsByColumns Cert.Proof.PlainDot

variable (V : (c : Dev nD) → (b : Ref sig .tc) → Buf (Elt Ideal) ((c : Thread nD τ).loc b))

theorem hz : (![0, 0] : Fin 2 → Nat) = fun _ => 0 := funext fun a => by fin_cases a <;> rfl

/-- A matrix with the one entry of a 1 × 1 array added to every entry. -/
def plusEntry {M N : Nat} (P : FVec Ideal ⟨2, ![M, N]⟩ .f32) (z : FVec Ideal ⟨2, ![1, 1]⟩ .f32) : FVec Ideal ⟨2, ![M, N]⟩ .f32 :=
  fun i => P i + z (ix2 0 0)

/-- The body's one stored value is the product of its two loaded blocks plus the bias block's entry. -/
theorem pay_eq (x0 : Vec Ideal S10000x64 .f32) (x1 : Vec Ideal S64x1 .f32) (x2 : Vec Ideal S1x1 .f32) :
    k4_pay1 x0 x1 x2 = plusEntry (rowsByColumns (M := 10000) (K := 64) (N := 1) x0 x1) x2 := by
  unfold k4_pay1
  dsimp only
  rw [shapeCast_self, shapeCast_self]
  funext i
  refine congrArg₂ (fun (a b : EReal) => a + b)
    (congrFun (matmul_zero_eq (M := 10000) (K := 64) (N := 1) Facts₀.dot_S10000x64_S64x1_S10000x1_1_0_0_1_n_n_wf none _ _) i) ?_
  exact broadcastTo_apply x2 broadcasts_S1x1_S10000x1 i (ix2 0 0) (fun a => by fin_cases a <;> rfl)

/-- The printed index maps, decided over the grid: the left operand's row block moves with the result's, every other
    block coordinate is 0, and the result's row block number stays below 10. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_3.index t (1 : Fin 2) = 0 ∧ win4_3.index t (0 : Fin 2) ≤ 9
    ∧ win4_2.index t (0 : Fin 2) = 0 ∧ win4_2.index t (1 : Fin 2) = 0 :=
  (by decide +kernel : ∀ t : Fin grid4.N, _)

/-- Every row block of the result is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- WHAT POINT t WRITES BACK is block t of the product of the whole operands, plus the bias entry, as the launch finds
    them. -/
theorem flushed_eq (c : Dev nD) (t : Fin cfg4.N) :
    (dat4 V c).flushed 3 t = ((cfg4.win 3).blk t).view.read (Elt Ideal)
      (plusEntry (rowsByColumns (M := 100000) (K := 64) (N := 1) (V c main_v97) (V c main_arg11)) (V c main_v98)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x1) hz, View.ld_unit_zero (S := S1x1) hz]
  rw [pay_eq]
  obtain ⟨e0, e1, e2, e3, e4, e5, e6, e7⟩ := idx_facts t
  funext j
  show @HAdd.hAdd EReal EReal EReal _ (∑ k : Fin 64, @HMul.hMul EReal EReal EReal _ (V c main_v97 (((cfg4.win 0).blk t).view.emb (ix2 (j 0) k))) (V c main_arg11 (((cfg4.win 1).blk t).view.emb (ix2 k (j 1)))))
      (V c main_v98 (((cfg4.win 2).blk t).view.emb (ix2 (0 : Fin 1) (0 : Fin 1))))
    = @HAdd.hAdd EReal EReal EReal _ (∑ k : Fin 64, @HMul.hMul EReal EReal EReal _ (V c main_v97 (ix2 ((((cfg4.win 3).blk t).view.emb j) 0) k)) (V c main_arg11 (ix2 k ((((cfg4.win 3).blk t).view.emb j) 1))))
      (V c main_v98 (ix2 (0 : Fin 1) (0 : Fin 1)))
  have h2 : ((cfg4.win 2).blk t).view.emb (ix2 (0 : Fin 1) (0 : Fin 1)) = ix2 (0 : Fin 1) (0 : Fin 1) := by
    funext a; apply Fin.ext
    match a with
    | ⟨0, _⟩ => show win4_2.index t (0 : Fin 2) * 1 + 1 * 0 = 0; omega
    | ⟨1, _⟩ => show win4_2.index t (1 : Fin 2) * 1 + 1 * 0 = 0; omega
  rw [h2]
  refine congrArg (fun s : EReal => s + _) (Finset.sum_congr rfl fun k _ => ?_)
  have h0 : ((cfg4.win 0).blk t).view.emb (ix2 (j 0) k) = ix2 ((((cfg4.win 3).blk t).view.emb j) 0) k := by
    funext a; apply Fin.ext
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * k.val = k.val; omega
  have h1 : ((cfg4.win 1).blk t).view.emb (ix2 k (j 1)) = ix2 k ((((cfg4.win 3).blk t).view.emb j) 1) := by
    funext a; apply Fin.ext
    match a with
    | ⟨0, _⟩ => show win4_1.index t (0 : Fin 2) * 64 + 1 * k.val = k.val; omega
    | ⟨1, _⟩ => show win4_1.index t (1 : Fin 2) * 1 + 1 * (j 1).val = win4_3.index t (1 : Fin 2) * 1 + 1 * (j 1).val; omega
  rw [h0, h1]
  rfl

/-- An index of the result is in point t's block iff each coordinate is in the block's range on its axis. -/
theorem mem_blk (t : Fin cfg4.N) (i : S100000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v99).slice (win4_3.rect t)).set ↔ _
  rw [View.set_slice_whole, Rect.mem_set_unit]
  exact Iff.rfl

/-- Every index of the result is in some writing point's block: the row's block number names the point. -/
theorem covered (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 1 ≤ (i 1).val ∧ (i 1).val < win4_3.index t (1 : Fin 2) * 1 + 1; omega

/-- THE RESULT ARRAY when the launch ends: the product of the operands, plus the bias entry, as the launch finds them. -/
theorem final (c : Dev nD) : (dat4 V c).arrAt 3 cfg4.N
    = plusEntry (rowsByColumns (M := 100000) (K := 64) (N := 1) (V c main_v97) (V c main_arg11)) (V c main_v98) :=
  (dat4 V c).arrAt_eq_of_cover 3 _ (fun t _ => flushed_eq V c t) covered

end Cert.KernelIdeal.Region4

end
-- ==== Proof.AgreeOut.lean ====
/-
  The two idealized programs end with equal results.

  After the fourth layer the kernel program's last launch multiplies the node features by the output weights, ten row
  blocks at a time, and adds the one bias value (the bias vector of length one recast as a 1 × 1 array) to every entry;
  the reference multiplies them as one host product and adds the bias vector broadcast to a column. Both are "the
  rows-times-columns product plus the bias value" of the same operands. The second result, the fourth layer's output, is
  a buffer neither program writes again.
-/
import proofs.«180866_j78597901517024_1_alg».proof.Proof.Agree4
import proofs.«180866_j78597901517024_1_alg».proof.Proof.Region4
import Idealize.ShloMosaic.PureOps.Ideal
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo
open Cert.Proof.RowsByColumns

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

open Idealize.ShloMosaic.ValueIdx

variable {m ρ m'}

/-- The reference's last host product is the rows-times-columns product. -/
theorem rdot5 (a : FVec Ideal Cert.ReferenceIdeal.S100000x64 .f32) (b : FVec Ideal Cert.ReferenceIdeal.S64x1 .f32) :
    Host.dotGeneral (F := Ideal) Cert.ReferenceIdeal.dot_S100000x64_S64x1_S100000x1_1_0_0_1_n_n none a b = rowsByColumns (M := 100000) (K := 64) (N := 1) a b :=
  dotGeneral_eq (M := 100000) (K := 64) (N := 1) Cert.ReferenceIdeal.Facts₀.dot_S100000x64_S64x1_S100000x1_1_0_0_1_n_n_wf none a b

/-- The reference's last stretch leaves the fourth layer's output, the output weights and the bias vector alone. -/
theorem u6_v97 (c : Dev Cert.KernelIdeal.nD) : Cert.ReferenceIdeal.Segs.U6 m' c (Proc.devRef .tc Cert.ReferenceIdeal.main_v97) = Cert.ReferenceIdeal.Segs.U5 m' c (Proc.devRef .tc Cert.ReferenceIdeal.main_v97) := by
  show StableHlo.after Cert.ReferenceIdeal.Segs.s5 (Cert.ReferenceIdeal.Segs.U5 m' c) (Proc.devRef .tc Cert.ReferenceIdeal.main_v97) = _
  generalize Cert.ReferenceIdeal.Segs.U5 m' c = VR
  after_results_simp

/-- The reference's first result: the product plus the bias vector broadcast twice. -/
theorem u6_v101 (c : Dev Cert.KernelIdeal.nD) : Cert.ReferenceIdeal.Segs.U6 m' c (Proc.devRef .tc Cert.ReferenceIdeal.main_v101)
    = addf (rowsByColumns (M := 100000) (K := 64) (N := 1) (Cert.ReferenceIdeal.Segs.U5 m' c (Proc.devRef .tc Cert.ReferenceIdeal.main_v97)) (Cert.ReferenceIdeal.Segs.U5 m' c (Proc.devRef .tc Cert.ReferenceIdeal.main_arg11)))
        (broadcastInDim Cert.ReferenceIdeal.S100000x1 ![0, 1] Cert.ReferenceIdeal.Gen.bcast_S1x1_S100000x1_0_1
          (broadcastInDim Cert.ReferenceIdeal.S1x1 ![1] Cert.ReferenceIdeal.Gen.bcast_S1_S1x1_1 (Cert.ReferenceIdeal.Segs.U5 m' c (Proc.devRef .tc Cert.ReferenceIdeal.main_arg12)))) := by
  show StableHlo.after Cert.ReferenceIdeal.Segs.s5 (Cert.ReferenceIdeal.Segs.U5 m' c) (Proc.devRef .tc Cert.ReferenceIdeal.main_v101) = _
  generalize Cert.ReferenceIdeal.Segs.U5 m' c = VR
  after_results_simp
  rw [rdot5]
  first | done | rfl

/-- The reference's fifth stretch leaves the bias vector alone. -/
theorem a11_arg12' (c : Dev Cert.KernelIdeal.nD) : Cert.ReferenceIdeal.Segs.U5 m' c (Proc.devRef .tc Cert.ReferenceIdeal.main_arg12) = Cert.ReferenceIdeal.Segs.U4 m' c (Proc.devRef .tc Cert.ReferenceIdeal.main_arg12) := by
  show StableHlo.after Cert.ReferenceIdeal.Segs.s4 (Cert.ReferenceIdeal.Segs.U4 m' c) (Proc.devRef .tc Cert.ReferenceIdeal.main_arg12) = _
  generalize Cert.ReferenceIdeal.Segs.U4 m' c = VR
  after_results_simp

/-- The kernel program's recast bias: the 1 × 1 array's entry is the bias vector's entry. -/
theorem a11_v98 (h : Agree m m') (c : Dev Cert.KernelIdeal.nD) :
    Cert.KernelIdeal.Gen.W11 m ρ c (Proc.devRef .tc Cert.KernelIdeal.main_v98) = shapeCast Cert.KernelIdeal.S1x1 (Cert.ReferenceIdeal.Segs.U5 m' c (Proc.devRef .tc Cert.ReferenceIdeal.main_arg12)) Cert.KernelIdeal.Gen.shapeCasts_S1_S1x1 := by
  show StableHlo.after Cert.KernelIdeal.Gen.hostOps4 (Cert.KernelIdeal.Gen.W10 m ρ c) (Proc.devRef .tc Cert.KernelIdeal.main_v98) = _
  generalize hVK : Cert.KernelIdeal.Gen.W10 m ρ c = VK
  after_results_simp
  subst hVK
  rw [a10_arg12 h c, ← a11_arg12' c]
  first | done | rfl

/-- THE SECOND RESULT: the fourth layer's output, in both programs. -/
theorem out1 (h : Agree m m') (c : Dev Cert.KernelIdeal.nD) :
    Cert.KernelIdeal.Gen.W12 m ρ c (Proc.devRef .tc Cert.KernelIdeal.main_v97) = Cert.ReferenceIdeal.Segs.U6 m' c (Proc.devRef .tc Cert.ReferenceIdeal.main_v97) :=
  ((Cert.KernelIdeal.Gen.W12_arr m ρ c 0).trans (((Cert.KernelIdeal.Gen.dat4 (Cert.KernelIdeal.Gen.V11 m ρ) c).arrAt_in 0 rfl _).trans (Cert.KernelIdeal.Gen.A_eq4 (Cert.KernelIdeal.Gen.V11 m ρ) c 0))).trans
    ((a11_v97 h c).trans (u6_v97 c).symm)

/-- A length-one vector recast as a 1 × 1 array: its entry. -/
theorem cast_entry (b : FVec Ideal ⟨1, ![1]⟩ .f32) (hc : (⟨1, ![1]⟩ : Shape).ShapeCasts ⟨2, ![1, 1]⟩) :
    shapeCast ⟨2, ![1, 1]⟩ b hc (ix2 (0 : Fin 1) (0 : Fin 1)) = b (ix1 (0 : Fin 1)) :=
  shapeCast_apply b hc (ix2 (0 : Fin 1) (0 : Fin 1)) (ix1 (0 : Fin 1)) rfl

/-- A length-one vector broadcast to a 1 × 1 array and then to a column: every entry is the vector's entry. -/
theorem column_entry (b : FVec Ideal ⟨1, ![1]⟩ .f32) (h1 : (⟨1, ![1]⟩ : Shape).BroadcastsInDim ⟨2, ![1, 1]⟩ ![1])
    (h2 : (⟨2, ![1, 1]⟩ : Shape).BroadcastsInDim ⟨2, ![100000, 1]⟩ ![0, 1]) (i : (⟨2, ![100000, 1]⟩ : Shape).Idx) :
    broadcastInDim ⟨2, ![100000, 1]⟩ ![0, 1] h2 (broadcastInDim ⟨2, ![1, 1]⟩ ![1] h1 b) i = b (ix1 (0 : Fin 1)) :=
  (broadcastInDim_apply ![0, 1] h2 (broadcastInDim ⟨2, ![1, 1]⟩ ![1] h1 b) i (ix2 (0 : Fin 1) (0 : Fin 1)) (fun a => by fin_cases a <;> rfl)).trans
    (broadcastInDim_apply ![1] h1 b (ix2 (0 : Fin 1) (0 : Fin 1)) (ix1 (0 : Fin 1)) (fun a => by fin_cases a <;> rfl))

/-- Adding the entry of a 1 × 1 array to every entry is adding any array whose every entry is that one. -/
theorem plusEntry_eq_addf {M N : Nat} (P : FVec Ideal ⟨2, ![M, N]⟩ .f32) (Z : FVec Ideal ⟨2, ![1, 1]⟩ .f32)
    (Q : FVec Ideal ⟨2, ![M, N]⟩ .f32) (hq : ∀ i, Q i = Z (ix2 (0 : Fin 1) (0 : Fin 1))) :
    Cert.KernelIdeal.Region4.plusEntry P Z = addf P Q := by
  funext i
  show P i + Z (ix2 (0 : Fin 1) (0 : Fin 1)) = P i + Q i
  rw [hq i]

/-- THE FIRST RESULT: the product of the fourth layer's output and the output weights, plus the bias value, in both
    programs. -/
theorem out0 (h : Agree m m') (c : Dev Cert.KernelIdeal.nD) :
    Cert.KernelIdeal.Gen.W12 m ρ c (Proc.devRef .tc Cert.KernelIdeal.main_v99) = Cert.ReferenceIdeal.Segs.U6 m' c (Proc.devRef .tc Cert.ReferenceIdeal.main_v101) := by
  refine ((Cert.KernelIdeal.Gen.W12_arr m ρ c 3).trans ((Cert.KernelIdeal.Region4.final (Cert.KernelIdeal.Gen.V11 m ρ) c).trans ?_))
  show Cert.KernelIdeal.Region4.plusEntry (rowsByColumns (M := 100000) (K := 64) (N := 1) (Cert.KernelIdeal.Gen.W11 m ρ c (Proc.devRef .tc Cert.KernelIdeal.main_v97)) (Cert.KernelIdeal.Gen.W11 m ρ c (Proc.devRef .tc Cert.KernelIdeal.main_arg11)))
      (Cert.KernelIdeal.Gen.W11 m ρ c (Proc.devRef .tc Cert.KernelIdeal.main_v98)) = _
  rw [u6_v101 c, a11_v97 h c, a11_arg11 h c, a11_v98 h c]
  exact plusEntry_eq_addf _ _ _ (fun i => (column_entry _ _ _ i).trans (cast_entry _ _).symm)

end Cert.Bridge

end
-- ==== Proof.lean ====
/-
  The certificate of the graph-convolution network kernel against its reference: four graph-convolution layers and a
  linear head over a graph of 100000 nodes and 3200000 edges (plus one self loop per node).

  The kernel program and the reference do the graph work — the edge lists with self loops, the degrees and their inverse
  square roots, the gather of rows at the sources, the scaling by the edge weights, the scatter-add at the targets, the
  biases — with the same host operations. They differ only in the five dense products: the reference takes each as one
  host product, the kernel program as a kernel launch that walks the rows in ten blocks of 10000, narrows both blocks
  to bf16 and multiplies them on the matrix unit onto a zero accumulator (the last launch also adds the bias value). On
  the extended reals the narrowing is the identity and a row of a rows-times-columns product depends on that row of the
  left operand only, so each launch leaves in its result array the product of its whole operands (Region0 … Region4),
  the same function the host product is (LibRowsByColumns). Stretch by stretch the buffers the later stretches read then
  hold the same arrays in the two programs (Agree0 … Agree4, AgreeOut), from launch memories that hold the same
  arguments; no law of arithmetic is used beyond that, so the finiteness precondition is never opened.

  The frames of the two kernel programs are the generated ones; the reference's frame is its run (RefRunP, RefSegs) with
  the results dropped: no operation of its line writes an argument (RefFrame). The idealization pass rewrote nothing,
  so the preservation claim is trivial.
-/
import proofs.«180866_j78597901517024_1_alg».proof.Defs
import proofs.«180866_j78597901517024_1_alg».proof.Proof.Gen.Kernel
import proofs.«180866_j78597901517024_1_alg».proof.Proof.Gen.Kernel.Skeleton
import proofs.«180866_j78597901517024_1_alg».proof.Proof.Gen.Kernel.Launch
import proofs.«180866_j78597901517024_1_alg».proof.Proof.Gen.Kernel.Points
import proofs.«180866_j78597901517024_1_alg».proof.Proof.Gen.Kernel.Frame
import proofs.«180866_j78597901517024_1_alg».proof.Proof.Gen.KernelIdeal
import proofs.«180866_j78597901517024_1_alg».proof.Proof.Gen.KernelIdeal.Skeleton
import proofs.«180866_j78597901517024_1_alg».proof.Proof.Gen.KernelIdeal.Launch
import proofs.«180866_j78597901517024_1_alg».proof.Proof.Gen.KernelIdeal.Points
import proofs.«180866_j78597901517024_1_alg».proof.Proof.Gen.KernelIdeal.Frame
import proofs.«180866_j78597901517024_1_alg».proof.Proof.Gen.ReferenceIdeal
import proofs.«180866_j78597901517024_1_alg».proof.Proof.Gen.Pre_finite_inputs
import proofs.«180866_j78597901517024_1_alg».proof.Proof.KernelRun
import proofs.«180866_j78597901517024_1_alg».proof.Proof.RefFrame
import proofs.«180866_j78597901517024_1_alg».proof.Proof.AgreeOut
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, each argument buffer read back to the launch memory. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Segs.kept m c Cert.ReferenceIdeal.main_arg0 (by decide)),
     (h c Cert.ReferenceIdeal.main_arg1).trans (Cert.ReferenceIdeal.Segs.kept m c Cert.ReferenceIdeal.main_arg1 (by decide)),
     (h c Cert.ReferenceIdeal.main_arg2).trans (Cert.ReferenceIdeal.Segs.kept m c Cert.ReferenceIdeal.main_arg2 (by decide)),
     (h c Cert.ReferenceIdeal.main_arg3).trans (Cert.ReferenceIdeal.Segs.kept m c Cert.ReferenceIdeal.main_arg3 (by decide)),
     (h c Cert.ReferenceIdeal.main_arg4).trans (Cert.ReferenceIdeal.Segs.kept m c Cert.ReferenceIdeal.main_arg4 (by decide)),
     (h c Cert.ReferenceIdeal.main_arg5).trans (Cert.ReferenceIdeal.Segs.kept m c Cert.ReferenceIdeal.main_arg5 (by decide)),
     (h c Cert.ReferenceIdeal.main_arg6).trans (Cert.ReferenceIdeal.Segs.kept m c Cert.ReferenceIdeal.main_arg6 (by decide)),
     (h c Cert.ReferenceIdeal.main_arg7).trans (Cert.ReferenceIdeal.Segs.kept m c Cert.ReferenceIdeal.main_arg7 (by decide)),
     (h c Cert.ReferenceIdeal.main_arg8).trans (Cert.ReferenceIdeal.Segs.kept m c Cert.ReferenceIdeal.main_arg8 (by decide)),
     (h c Cert.ReferenceIdeal.main_arg9).trans (Cert.ReferenceIdeal.Segs.kept m c Cert.ReferenceIdeal.main_arg9 (by decide)),
     (h c Cert.ReferenceIdeal.main_arg10).trans (Cert.ReferenceIdeal.Segs.kept m c Cert.ReferenceIdeal.main_arg10 (by decide)),
     (h c Cert.ReferenceIdeal.main_arg11).trans (Cert.ReferenceIdeal.Segs.kept m c Cert.ReferenceIdeal.main_arg11 (by decide)),
     (h c Cert.ReferenceIdeal.main_arg12).trans (Cert.ReferenceIdeal.Segs.kept m c Cert.ReferenceIdeal.main_arg12 (by decide))⟩)
    (Cert.ReferenceIdeal.Segs.run (F := Ideal) m ρ)

theorem preserves : Cert.preserves_Kernel_KernelIdeal := trivial

/-- From launch memories holding the same arguments both idealized programs run, and their results are equal: each
    result buffer of the kernel program ends at the last valuation of its frame, each of the reference at the last
    valuation of its line, and the two valuations agree on the results (AgreeOut). -/
theorem algebraic : Cert.algebraic_KernelIdeal_ReferenceIdeal := by
  intro m ρ m' ρ' _ hagree
  refine ⟨fun c => Cert.KernelIdeal.Gen.W12 m ρ c (Proc.devRef .tc Cert.KernelIdeal.main_v99), fun c => Cert.KernelIdeal.Gen.W12 m ρ c (Proc.devRef .tc Cert.KernelIdeal.main_v97), ?_, ?_⟩
  · refine (θ_run Cert.KernelIdeal.defs _ _).mono (fun r hr c => ?_) (Cert.KernelIdeal.Run.run_all m ρ)
    have hb := hr c
    exact ⟨hb _ (Cert.KernelIdeal.Gen.mem_uc Cert.KernelIdeal.main_v99 (by decide)), hb _ (Cert.KernelIdeal.Gen.mem_uc Cert.KernelIdeal.main_v97 (by decide)),
      (hb _ (Cert.KernelIdeal.Gen.mem_uc Cert.KernelIdeal.main_arg0 (by decide))).trans (Cert.KernelIdeal.Gen.W12_main_arg0 m ρ c),
      (hb _ (Cert.KernelIdeal.Gen.mem_uc Cert.KernelIdeal.main_arg1 (by decide))).trans (Cert.KernelIdeal.Gen.W12_main_arg1 m ρ c),
      (hb _ (Cert.KernelIdeal.Gen.mem_uc Cert.KernelIdeal.main_arg2 (by decide))).trans (Cert.KernelIdeal.Gen.W12_main_arg2 m ρ c),
      (hb _ (Cert.KernelIdeal.Gen.mem_uc Cert.KernelIdeal.main_arg3 (by decide))).trans (Cert.KernelIdeal.Gen.W12_main_arg3 m ρ c),
      (hb _ (Cert.KernelIdeal.Gen.mem_uc Cert.KernelIdeal.main_arg4 (by decide))).trans (Cert.KernelIdeal.Gen.W12_main_arg4 m ρ c),
      (hb _ (Cert.KernelIdeal.Gen.mem_uc Cert.KernelIdeal.main_arg5 (by decide))).trans (Cert.KernelIdeal.Gen.W12_main_arg5 m ρ c),
      (hb _ (Cert.KernelIdeal.Gen.mem_uc Cert.KernelIdeal.main_arg6 (by decide))).trans (Cert.KernelIdeal.Gen.W12_main_arg6 m ρ c),
      (hb _ (Cert.KernelIdeal.Gen.mem_uc Cert.KernelIdeal.main_arg7 (by decide))).trans (Cert.KernelIdeal.Gen.W12_main_arg7 m ρ c),
      (hb _ (Cert.KernelIdeal.Gen.mem_uc Cert.KernelIdeal.main_arg8 (by decide))).trans (Cert.KernelIdeal.Gen.W12_main_arg8 m ρ c),
      (hb _ (Cert.KernelIdeal.Gen.mem_uc Cert.KernelIdeal.main_arg9 (by decide))).trans (Cert.KernelIdeal.Gen.W12_main_arg9 m ρ c),
      (hb _ (Cert.KernelIdeal.Gen.mem_uc Cert.KernelIdeal.main_arg10 (by decide))).trans (Cert.KernelIdeal.Gen.W12_main_arg10 m ρ c),
      (hb _ (Cert.KernelIdeal.Gen.mem_uc Cert.KernelIdeal.main_arg11 (by decide))).trans (Cert.KernelIdeal.Gen.W12_main_arg11 m ρ c),
      (hb _ (Cert.KernelIdeal.Gen.mem_uc Cert.KernelIdeal.main_arg12 (by decide))).trans (Cert.KernelIdeal.Gen.W12_main_arg12 m ρ c)⟩
  · refine (θ_run Cert.ReferenceIdeal.defs _ _).mono (fun r hr c => ?_) (Cert.ReferenceIdeal.Segs.run (F := Ideal) m' ρ')
    exact ⟨(hr c Cert.ReferenceIdeal.main_v101).trans (Cert.Bridge.out0 hagree c).symm, (hr c Cert.ReferenceIdeal.main_v97).trans (Cert.Bridge.out1 hagree c).symm,
      (hr c Cert.ReferenceIdeal.main_arg0).trans (Cert.ReferenceIdeal.Segs.kept m' c Cert.ReferenceIdeal.main_arg0 (by decide)),
      (hr c Cert.ReferenceIdeal.main_arg1).trans (Cert.ReferenceIdeal.Segs.kept m' c Cert.ReferenceIdeal.main_arg1 (by decide)),
      (hr c Cert.ReferenceIdeal.main_arg2).trans (Cert.ReferenceIdeal.Segs.kept m' c Cert.ReferenceIdeal.main_arg2 (by decide)),
      (hr c Cert.ReferenceIdeal.main_arg3).trans (Cert.ReferenceIdeal.Segs.kept m' c Cert.ReferenceIdeal.main_arg3 (by decide)),
      (hr c Cert.ReferenceIdeal.main_arg4).trans (Cert.ReferenceIdeal.Segs.kept m' c Cert.ReferenceIdeal.main_arg4 (by decide)),
      (hr c Cert.ReferenceIdeal.main_arg5).trans (Cert.ReferenceIdeal.Segs.kept m' c Cert.ReferenceIdeal.main_arg5 (by decide)),
      (hr c Cert.ReferenceIdeal.main_arg6).trans (Cert.ReferenceIdeal.Segs.kept m' c Cert.ReferenceIdeal.main_arg6 (by decide)),
      (hr c Cert.ReferenceIdeal.main_arg7).trans (Cert.ReferenceIdeal.Segs.kept m' c Cert.ReferenceIdeal.main_arg7 (by decide)),
      (hr c Cert.ReferenceIdeal.main_arg8).trans (Cert.ReferenceIdeal.Segs.kept m' c Cert.ReferenceIdeal.main_arg8 (by decide)),
      (hr c Cert.ReferenceIdeal.main_arg9).trans (Cert.ReferenceIdeal.Segs.kept m' c Cert.ReferenceIdeal.main_arg9 (by decide)),
      (hr c Cert.ReferenceIdeal.main_arg10).trans (Cert.ReferenceIdeal.Segs.kept m' c Cert.ReferenceIdeal.main_arg10 (by decide)),
      (hr c Cert.ReferenceIdeal.main_arg11).trans (Cert.ReferenceIdeal.Segs.kept m' c Cert.ReferenceIdeal.main_arg11 (by decide)),
      (hr c Cert.ReferenceIdeal.main_arg12).trans (Cert.ReferenceIdeal.Segs.kept m' c Cert.ReferenceIdeal.main_arg12 (by decide))⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
